-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v28)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v28) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1000000x3 : Shape := ⟨2, ![1000000, 3]⟩
abbrev S2x26000000 : Shape := ⟨2, ![2, 26000000]⟩
abbrev S26000000x1 : Shape := ⟨2, ![26000000, 1]⟩
abbrev S1x8 : Shape := ⟨2, ![1, 8]⟩
abbrev S1000000 : Shape := ⟨1, ![1000000]⟩
abbrev S6x16 : Shape := ⟨2, ![6, 16]⟩
abbrev S16 : Shape := ⟨1, ![16]⟩
abbrev S16x16 : Shape := ⟨2, ![16, 16]⟩
abbrev S16x3 : Shape := ⟨2, ![16, 3]⟩
abbrev S3 : Shape := ⟨1, ![3]⟩
abbrev S_ : Shape := ⟨0, ![]⟩

class Facts : Prop where
  bcast_S_S1000000x3 : S_.BroadcastsInDim S1000000x3 (![] : Fin 0 → Fin S1000000x3.rank)
  reducesTo_S1000000x3_S_d0_1 : S1000000x3.ReducesTo [0, 1] S_
  h_S_ : 0 < S_.numel
  bcast_S_S26000000x1 : S_.BroadcastsInDim S26000000x1 (![] : Fin 0 → Fin S26000000x1.rank)
  reducesTo_S26000000x1_S_d0_1 : S26000000x1.ReducesTo [0, 1] S_
  bcast_S_S1x8 : S_.BroadcastsInDim S1x8 (![] : Fin 0 → Fin S1x8.rank)
  reducesTo_S1x8_S_d0_1 : S1x8.ReducesTo [0, 1] S_
  bcast_S_S6x16 : S_.BroadcastsInDim S6x16 (![] : Fin 0 → Fin S6x16.rank)
  reducesTo_S6x16_S_d0_1 : S6x16.ReducesTo [0, 1] S_
  bcast_S_S16 : S_.BroadcastsInDim S16 (![] : Fin 0 → Fin S16.rank)
  reducesTo_S16_S_d0 : S16.ReducesTo [0] S_
  bcast_S_S16x16 : S_.BroadcastsInDim S16x16 (![] : Fin 0 → Fin S16x16.rank)
  reducesTo_S16x16_S_d0_1 : S16x16.ReducesTo [0, 1] S_
  bcast_S_S16x3 : S_.BroadcastsInDim S16x3 (![] : Fin 0 → Fin S16x3.rank)
  reducesTo_S16x3_S_d0_1 : S16x3.ReducesTo [0, 1] S_
  bcast_S_S3 : S_.BroadcastsInDim S3 (![] : Fin 0 → Fin S3.rank)
  reducesTo_S3_S_d0 : S3.ReducesTo [0] S_

variable [Facts]

def fn_part2 {F : FTy → Type} [FloatOps F] (main_arg9 : FVec F S16x3 .f32) (main_arg10 : FVec F S3 .f32) (main_v33 : IVec S_ 1) : IVec S_ 1 :=
  let main_v34 : FVec F S16x3 .f32 := Host.absf main_arg9
  let main_cst_12 : FVec F S_ .f32 := constant S_ .f32 0x7F800000#32
  let main_v35 : FVec F S16x3 .f32 := broadcastInDim S16x3 ![] bcast_S_S16x3 main_cst_12
  let main_v36 : IVec S16x3 1 := cmpf .olt main_v34 main_v35
  let main_c_13 : IVec S_ 1 := constantI S_ 1 1#1
  let main_v37 : IVec S_ 1 := (fun x v => Host.reduce IntOp.andi x v reducesTo_S16x3_S_d0_1 h_S_) main_v36 main_c_13
  let main_v38 : IVec S_ 1 := andi main_v33 main_v37
  let main_v39 : FVec F S3 .f32 := Host.absf main_arg10
  let main_cst_14 : FVec F S_ .f32 := constant S_ .f32 0x7F800000#32
  let main_v40 : FVec F S3 .f32 := broadcastInDim S3 ![] bcast_S_S3 main_cst_14
  let main_v41 : IVec S3 1 := cmpf .olt main_v39 main_v40
  let main_c_15 : IVec S_ 1 := constantI S_ 1 1#1
  let main_v42 : IVec S_ 1 := (fun x v => Host.reduce IntOp.andi x v reducesTo_S3_S_d0 h_S_) main_v41 main_c_15
  let main_v43 : IVec S_ 1 := andi main_v38 main_v42
  main_v43

def fn_part1 {F : FTy → Type} [FloatOps F] (main_arg6 : FVec F S16 .f32) (main_arg7 : FVec F S16x16 .f32) (main_arg8 : FVec F S16 .f32) (main_arg9 : FVec F S16x3 .f32) (main_arg10 : FVec F S3 .f32) (main_v13 : IVec S_ 1) (main_v16 : IVec S6x16 1) : IVec S_ 1 :=
  let main_c_5 : IVec S_ 1 := constantI S_ 1 1#1
  let main_v17 : IVec S_ 1 := (fun x v => Host.reduce IntOp.andi x v reducesTo_S6x16_S_d0_1 h_S_) main_v16 main_c_5
  let main_v18 : IVec S_ 1 := andi main_v13 main_v17
  let main_v19 : FVec F S16 .f32 := Host.absf main_arg6
  let main_cst_6 : FVec F S_ .f32 := constant S_ .f32 0x7F800000#32
  let main_v20 : FVec F S16 .f32 := broadcastInDim S16 ![] bcast_S_S16 main_cst_6
  let main_v21 : IVec S16 1 := cmpf .olt main_v19 main_v20
  let main_c_7 : IVec S_ 1 := constantI S_ 1 1#1
  let main_v22 : IVec S_ 1 := (fun x v => Host.reduce IntOp.andi x v reducesTo_S16_S_d0 h_S_) main_v21 main_c_7
  let main_v23 : IVec S_ 1 := andi main_v18 main_v22
  let main_v24 : FVec F S16x16 .f32 := Host.absf main_arg7
  let main_cst_8 : FVec F S_ .f32 := constant S_ .f32 0x7F800000#32
  let main_v25 : FVec F S16x16 .f32 := broadcastInDim S16x16 ![] bcast_S_S16x16 main_cst_8
  let main_v26 : IVec S16x16 1 := cmpf .olt main_v24 main_v25
  let main_c_9 : IVec S_ 1 := constantI S_ 1 1#1
  let main_v27 : IVec S_ 1 := (fun x v => Host.reduce IntOp.andi x v reducesTo_S16x16_S_d0_1 h_S_) main_v26 main_c_9
  let main_v28 : IVec S_ 1 := andi main_v23 main_v27
  let main_v29 : FVec F S16 .f32 := Host.absf main_arg8
  let main_cst_10 : FVec F S_ .f32 := constant S_ .f32 0x7F800000#32
  let main_v30 : FVec F S16 .f32 := broadcastInDim S16 ![] bcast_S_S16 main_cst_10
  let main_v31 : IVec S16 1 := cmpf .olt main_v29 main_v30
  let main_c_11 : IVec S_ 1 := constantI S_ 1 1#1
  let main_v32 : IVec S_ 1 := (fun x v => Host.reduce IntOp.andi x v reducesTo_S16_S_d0 h_S_) main_v31 main_c_11
  let main_v33 : IVec S_ 1 := andi main_v28 main_v32
  fn_part2 (F := F) main_arg9 main_arg10 main_v33

def fn {F : FTy → Type} [FloatOps F] (main_arg0 : FVec F S1000000x3 .f32) (main_arg1 : IVec S2x26000000 32) (main_arg2 : FVec F S26000000x1 .f32) (main_arg3 : FVec F S1x8 .f32) (main_arg4 : IVec S1000000 32) (main_arg5 : FVec F S6x16 .f32) (main_arg6 : FVec F S16 .f32) (main_arg7 : FVec F S16x16 .f32) (main_arg8 : FVec F S16 .f32) (main_arg9 : FVec F S16x3 .f32) (main_arg10 : FVec F S3 .f32) : IVec S_ 1 :=
  let main_v0 : FVec F S1000000x3 .f32 := Host.absf main_arg0
  let main_cst : FVec F S_ .f32 := constant S_ .f32 0x7F800000#32
  let main_v1 : FVec F S1000000x3 .f32 := broadcastInDim S1000000x3 ![] bcast_S_S1000000x3 main_cst
  let main_v2 : IVec S1000000x3 1 := cmpf .olt main_v0 main_v1
  let main_c : IVec S_ 1 := constantI S_ 1 1#1
  let main_v3 : IVec S_ 1 := (fun x v => Host.reduce IntOp.andi x v reducesTo_S1000000x3_S_d0_1 h_S_) main_v2 main_c
  let main_v4 : FVec F S26000000x1 .f32 := Host.absf main_arg2
  let main_cst_0 : FVec F S_ .f32 := constant S_ .f32 0x7F800000#32
  let main_v5 : FVec F S26000000x1 .f32 := broadcastInDim S26000000x1 ![] bcast_S_S26000000x1 main_cst_0
  let main_v6 : IVec S26000000x1 1 := cmpf .olt main_v4 main_v5
  let main_c_1 : IVec S_ 1 := constantI S_ 1 1#1
  let main_v7 : IVec S_ 1 := (fun x v => Host.reduce IntOp.andi x v reducesTo_S26000000x1_S_d0_1 h_S_) main_v6 main_c_1
  let main_v8 : IVec S_ 1 := andi main_v3 main_v7
  let main_v9 : FVec F S1x8 .f32 := Host.absf main_arg3
  let main_cst_2 : FVec F S_ .f32 := constant S_ .f32 0x7F800000#32
  let main_v10 : FVec F S1x8 .f32 := broadcastInDim S1x8 ![] bcast_S_S1x8 main_cst_2
  let main_v11 : IVec S1x8 1 := cmpf .olt main_v9 main_v10
  let main_c_3 : IVec S_ 1 := constantI S_ 1 1#1
  let main_v12 : IVec S_ 1 := (fun x v => Host.reduce IntOp.andi x v reducesTo_S1x8_S_d0_1 h_S_) main_v11 main_c_3
  let main_v13 : IVec S_ 1 := andi main_v8 main_v12
  let main_v14 : FVec F S6x16 .f32 := Host.absf main_arg5
  let main_cst_4 : FVec F S_ .f32 := constant S_ .f32 0x7F800000#32
  let main_v15 : FVec F S6x16 .f32 := broadcastInDim S6x16 ![] bcast_S_S6x16 main_cst_4
  let main_v16 : IVec S6x16 1 := cmpf .olt main_v14 main_v15
  fn_part1 (F := F) main_arg6 main_arg7 main_arg8 main_arg9 main_arg10 main_v13 main_v16
-- ==== Kernel.lean ====
abbrev S1000000x3 : Shape := ⟨2, ![1000000, 3]⟩
abbrev S2x26000000 : Shape := ⟨2, ![2, 26000000]⟩
abbrev S26000000x1 : Shape := ⟨2, ![26000000, 1]⟩
abbrev S1x8 : Shape := ⟨2, ![1, 8]⟩
abbrev S1000000 : Shape := ⟨1, ![1000000]⟩
abbrev S6x16 : Shape := ⟨2, ![6, 16]⟩
abbrev S16 : Shape := ⟨1, ![16]⟩
abbrev S16x16 : Shape := ⟨2, ![16, 16]⟩
abbrev S16x3 : Shape := ⟨2, ![16, 3]⟩
abbrev S3 : Shape := ⟨1, ![3]⟩
abbrev S1x26000000 : Shape := ⟨2, ![1, 26000000]⟩
abbrev S26000000 : Shape := ⟨1, ![26000000]⟩
abbrev S_ : Shape := ⟨0, ![]⟩
abbrev S26000000x3 : Shape := ⟨2, ![26000000, 3]⟩
abbrev S3x1000000 : Shape := ⟨2, ![3, 1000000]⟩
abbrev S3x1015808 : Shape := ⟨2, ![3, 1015808]⟩
abbrev S16x6 : Shape := ⟨2, ![16, 6]⟩
abbrev S3x16 : Shape := ⟨2, ![3, 16]⟩
abbrev S16x1 : Shape := ⟨2, ![16, 1]⟩
abbrev S3x1 : Shape := ⟨2, ![3, 1]⟩
abbrev S3x32768 : Shape := ⟨2, ![3, 32768]⟩
abbrev S16x32768 : Shape := ⟨2, ![16, 32768]⟩

abbrev nBuf : Space → Nat
  | .hbm => 47
  | .vmem => 13
  | .smem => 0
  | _ => 0

abbrev bufTy : (tb : Table) → Fin (tcTables nBuf tb) → BufTy
  | .hbm, ⟨0, _⟩ => ⟨S1000000x3, .f32⟩
  | .hbm, ⟨1, _⟩ => ⟨S2x26000000, .i32⟩
  | .hbm, ⟨2, _⟩ => ⟨S26000000x1, .f32⟩
  | .hbm, ⟨3, _⟩ => ⟨S1x8, .f32⟩
  | .hbm, ⟨4, _⟩ => ⟨S1000000, .i32⟩
  | .hbm, ⟨5, _⟩ => ⟨S6x16, .f32⟩
  | .hbm, ⟨6, _⟩ => ⟨S16, .f32⟩
  | .hbm, ⟨7, _⟩ => ⟨S16x16, .f32⟩
  | .hbm, ⟨8, _⟩ => ⟨S16, .f32⟩
  | .hbm, ⟨9, _⟩ => ⟨S16x3, .f32⟩
  | .hbm, ⟨10, _⟩ => ⟨S3, .f32⟩
  | .hbm, ⟨11, _⟩ => ⟨S1x26000000, .i32⟩
  | .hbm, ⟨12, _⟩ => ⟨S26000000, .i32⟩
  | .hbm, ⟨13, _⟩ => ⟨S1x26000000, .i32⟩
  | .hbm, ⟨14, _⟩ => ⟨S26000000, .i32⟩
  | .hbm, ⟨15, _⟩ => ⟨S_, .i32⟩
  | .hbm, ⟨16, _⟩ => ⟨S26000000, .i32⟩
  | .hbm, ⟨17, _⟩ => ⟨S26000000, .i1⟩
  | .hbm, ⟨18, _⟩ => ⟨S_, .i32⟩
  | .hbm, ⟨19, _⟩ => ⟨S26000000, .i32⟩
  | .hbm, ⟨20, _⟩ => ⟨S26000000, .i32⟩
  | .hbm, ⟨21, _⟩ => ⟨S26000000, .i32⟩
  | .hbm, ⟨22, _⟩ => ⟨S26000000x1, .i32⟩
  | .hbm, ⟨23, _⟩ => ⟨S26000000x3, .f32⟩
  | .hbm, ⟨24, _⟩ => ⟨S_, .f32⟩
  | .hbm, ⟨25, _⟩ => ⟨S1000000x3, .f32⟩
  | .hbm, ⟨26, _⟩ => ⟨S26000000x1, .i32⟩
  | .hbm, ⟨27, _⟩ => ⟨S1000000x3, .f32⟩
  | .hbm, ⟨28, _⟩ => ⟨S3x1000000, .f32⟩
  | .hbm, ⟨29, _⟩ => ⟨S_, .i32⟩
  | .hbm, ⟨30, _⟩ => ⟨S_, .f32⟩
  | .hbm, ⟨31, _⟩ => ⟨S3x1015808, .f32⟩
  | .hbm, ⟨32, _⟩ => ⟨S3x1000000, .f32⟩
  | .hbm, ⟨33, _⟩ => ⟨S_, .i32⟩
  | .hbm, ⟨34, _⟩ => ⟨S_, .f32⟩
  | .hbm, ⟨35, _⟩ => ⟨S3x1015808, .f32⟩
  | .hbm, ⟨36, _⟩ => ⟨S16x6, .f32⟩
  | .hbm, ⟨37, _⟩ => ⟨S16x3, .f32⟩
  | .hbm, ⟨38, _⟩ => ⟨S16x3, .f32⟩
  | .hbm, ⟨39, _⟩ => ⟨S16x16, .f32⟩
  | .hbm, ⟨40, _⟩ => ⟨S3x16, .f32⟩
  | .hbm, ⟨41, _⟩ => ⟨S16x1, .f32⟩
  | .hbm, ⟨42, _⟩ => ⟨S16x1, .f32⟩
  | .hbm, ⟨43, _⟩ => ⟨S3x1, .f32⟩
  | .hbm, ⟨44, _⟩ => ⟨S3x1015808, .f32⟩
  | .hbm, ⟨45, _⟩ => ⟨S3x1000000, .f32⟩
  | .hbm, ⟨46, _⟩ => ⟨S1000000x3, .f32⟩
  | .local _ .vmem, ⟨0, _⟩ => ⟨S3x32768, .f32⟩
  | .local _ .vmem, ⟨1, _⟩ => ⟨S3x32768, .f32⟩
  | .local _ .vmem, ⟨2, _⟩ => ⟨S3x32768, .f32⟩
  | .local _ .vmem, ⟨3, _⟩ => ⟨S3x32768, .f32⟩
  | .local _ .vmem, ⟨4, _⟩ => ⟨S16x3, .f32⟩
  | .local _ .vmem, ⟨5, _⟩ => ⟨S16x3, .f32⟩
  | .local _ .vmem, ⟨6, _⟩ => ⟨S16x1, .f32⟩
  | .local _ .vmem, ⟨7, _⟩ => ⟨S16x16, .f32⟩
  | .local _ .vmem, ⟨8, _⟩ => ⟨S16x1, .f32⟩
  | .local _ .vmem, ⟨9, _⟩ => ⟨S3x16, .f32⟩
  | .local _ .vmem, ⟨10, _⟩ => ⟨S3x1, .f32⟩
  | .local _ .vmem, ⟨11, _⟩ => ⟨S3x32768, .f32⟩
  | .local _ .vmem, ⟨12, _⟩ => ⟨S3x32768, .f32⟩
  | _, _ => ⟨S1000000x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_c_1 : Ref sig .tc := ⟨.hbm, 29, rfl⟩
abbrev main_call0_v0 : Ref sig .tc := ⟨.hbm, 30, rfl⟩
abbrev main_v15 : Ref sig .tc := ⟨.hbm, 31, rfl⟩
abbrev main_v16 : Ref sig .tc := ⟨.hbm, 32, rfl⟩
abbrev main_c_2 : Ref sig .tc := ⟨.hbm, 33, rfl⟩
abbrev main_call1_v0 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem9_1 : DmaSem sig := 12

abbrev nD : Nat := 1
abbrev τ : Topo := Topo.v7x

variable {F : FTy → Type} [FloatOps F]

abbrev grid0 : Pipeline.Grid := ⟨1, ![31], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S3x32768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3x32768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S16x3 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S16x3 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S16x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S16x16 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S16x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S3x16 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S3x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S3x32768 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  slices_S2x26000000_S1x26000000_0_0 : S2x26000000.Slices ![0, 0] S1x26000000
  shapeCasts_S1x26000000_S26000000 : S1x26000000.ShapeCasts S26000000
  slices_S2x26000000_S1x26000000_1_0 : S2x26000000.Slices ![1, 0] S1x26000000
  bcast_S_S26000000 : S_.BroadcastsInDim S26000000 (![] : Fin 0 → Fin S26000000.rank)
  bcast_S26000000_S26000000x1_0 : S26000000.BroadcastsInDim S26000000x1 (![0] : Fin 1 → Fin S26000000x1.rank)
  bcast_S_S1000000x3 : S_.BroadcastsInDim S1000000x3 (![] : Fin 0 → Fin S1000000x3.rank)
  transposes_S1000000x3_S3x1000000_1_0 : S1000000x3.Transposes [1, 0] S3x1000000
  pads_S3x1000000_S3x1015808_000_0158080 : S3x1000000.Pads (![0, 0] : Fin 2 → Nat) ![0, 15808] ![0, 0] S3x1015808
  h_S_ : 0 < S_.numel
  transposes_S6x16_S16x6_1_0 : S6x16.Transposes [1, 0] S16x6
  slices_S16x6_S16x3_0_0 : S16x6.Slices ![0, 0] S16x3
  slices_S16x6_S16x3_0_3 : S16x6.Slices ![0, 3] S16x3
  transposes_S16x16_S16x16_1_0 : S16x16.Transposes [1, 0] S16x16
  transposes_S16x3_S3x16_1_0 : S16x3.Transposes [1, 0] S3x16
  shapeCasts_S16_S16x1 : S16.ShapeCasts S16x1
  shapeCasts_S3_S3x1 : S3.ShapeCasts S3x1
  inb_S3x32768_S3x32768_0_0 : ∀ a, (![0, 0] : Fin 2 → Nat) a + S3x32768.size a ≤ S3x32768.size a
  h_S3x32768 : 0 < S3x32768.numel
  shapeCasts_S3x32768_S3x32768 : S3x32768.ShapeCasts S3x32768
  bitsLt_bf16_f32 : FTy.bits .bf16 < FTy.bits .f32
  inb_S16x3_S16x3_0_0 : ∀ a, (![0, 0] : Fin 2 → Nat) a + S16x3.size a ≤ S16x3.size a
  h_S16x3 : 0 < S16x3.numel
  shapeCasts_S16x3_S16x3 : S16x3.ShapeCasts S16x3
  inb_S16x1_S16x1_0_0 : ∀ a, (![0, 0] : Fin 2 → Nat) a + S16x1.size a ≤ S16x1.size a
  h_S16x1 : 0 < S16x1.numel
  shapeCasts_S16x1_S16x1 : S16x1.ShapeCasts S16x1
  broadcasts_S16x1_S16x32768 : S16x1.Broadcasts S16x32768
  inb_S16x16_S16x16_0_0 : ∀ a, (![0, 0] : Fin 2 → Nat) a + S16x16.size a ≤ S16x16.size a
  h_S16x16 : 0 < S16x16.numel
  shapeCasts_S16x16_S16x16 : S16x16.ShapeCasts S16x16
  inb_S3x16_S3x16_0_0 : ∀ a, (![0, 0] : Fin 2 → Nat) a + S3x16.size a ≤ S3x16.size a
  h_S3x16 : 0 < S3x16.numel
  shapeCasts_S3x16_S3x16 : S3x16.ShapeCasts S3x16
  inb_S3x1_S3x1_0_0 : ∀ a, (![0, 0] : Fin 2 → Nat) a + S3x1.size a ≤ S3x1.size a
  h_S3x1 : 0 < S3x1.numel
  shapeCasts_S3x1_S3x1 : S3x1.ShapeCasts S3x1
  broadcasts_S3x1_S3x32768 : S3x1.Broadcasts S3x32768
  slices_S3x1015808_S3x1000000_0_0 : S3x1015808.Slices ![0, 0] S3x1000000
  transposes_S3x1000000_S1000000x3_1_0 : S3x1000000.Transposes [1, 0] S1000000x3
  gather_S1000000x3_S26000000x1_S26000000x3_1_0_n_n_0_1_13_wf : GatherDims.WF S1000000x3 S26000000x1 S26000000x3 [1] [0] [] [0] [] 1 ![1, 3]
  scatter_S1000000x3_S26000000x1_S26000000x3_1_0_0_1_wf : ScatterDims.WF S1000000x3 S26000000x1 S26000000x3 [1] [0] [0] 1
  dot_S16x3_S3x32768_S16x32768_1_0_0_1_n_n_wf : DotDims.WF S16x3 S3x32768 S16x32768 [1] [0] [0] [1] [] []
  dot_S16x16_S16x32768_S16x32768_1_0_0_1_n_n_wf : DotDims.WF S16x16 S16x32768 S16x32768 [1] [0] [0] [1] [] []
  dot_S3x16_S16x32768_S3x32768_1_0_0_1_n_n_wf : DotDims.WF S3x16 S16x32768 S3x32768 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S3x32768.size a ≤ S3x1015808.size a
  hwx0_0 : ∀ i : grid0.Coords, EltTy.bits .f32 = 32 ∨ (Rect.block (s := S3x1015808) S3x32768.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S3x32768.size a ≤ S3x1015808.size a
  hwx0_1 : ∀ i : grid0.Coords, EltTy.bits .f32 = 32 ∨ (Rect.block (s := S3x1015808) S3x32768.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S16x3.size a ≤ S16x3.size a
  hwx0_2 : ∀ i : grid0.Coords, EltTy.bits .f32 = 32 ∨ (Rect.block (s := S16x3) S16x3.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S16x3.size a ≤ S16x3.size a
  hwx0_3 : ∀ i : grid0.Coords, EltTy.bits .f32 = 32 ∨ (Rect.block (s := S16x3) S16x3.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S16x1.size a ≤ S16x1.size a
  hwx0_4 : ∀ i : grid0.Coords, EltTy.bits .f32 = 32 ∨ (Rect.block (s := S16x1) S16x1.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S16x16.size a ≤ S16x16.size a
  hwx0_5 : ∀ i : grid0.Coords, EltTy.bits .f32 = 32 ∨ (Rect.block (s := S16x16) S16x16.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S16x1.size a ≤ S16x1.size a
  hwx0_6 : ∀ i : grid0.Coords, EltTy.bits .f32 = 32 ∨ (Rect.block (s := S16x1) S16x1.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S3x16.size a ≤ S3x16.size a
  hwx0_7 : ∀ i : grid0.Coords, EltTy.bits .f32 = 32 ∨ (Rect.block (s := S3x16) S3x16.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S3x1.size a ≤ S3x1.size a
  hwx0_8 : ∀ i : grid0.Coords, EltTy.bits .f32 = 32 ∨ (Rect.block (s := S3x1) S3x1.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S3x32768.size a ≤ S3x1015808.size a
  hwx0_9 : ∀ i : grid0.Coords, EltTy.bits .f32 = 32 ∨ (Rect.block (s := S3x1015808) S3x32768.size (cc0_transform_9 i) (hinb0_9 i)).WholeWords (EltTy.packing .f32)

variable [Facts₀]

def gather_S1000000x3_S26000000x1_S26000000x3_1_0_n_n_0_1_13 : GatherDims S1000000x3 S26000000x1 S26000000x3 where
  offsetDims := [1]
  collapsedSliceDims := [0]
  operandBatchingDims := []
  startIndicesBatchingDims := []
  startIndexMap := [0]
  indexVectorDim := 1
  sliceSizes := ![1, 3]
  wf := gather_S1000000x3_S26000000x1_S26000000x3_1_0_n_n_0_1_13_wf
def scatter_S1000000x3_S26000000x1_S26000000x3_1_0_0_1 : ScatterDims S1000000x3 S26000000x1 S26000000x3 where
  updateWindowDims := [1]
  insertedWindowDims := [0]
  scatterDimsToOperandDims := [0]
  indexVectorDim := 1
  wf := scatter_S1000000x3_S26000000x1_S26000000x3_1_0_0_1_wf
def dot_S16x3_S3x32768_S16x32768_1_0_0_1_n_n : DotDims S16x3 S3x32768 S16x32768 where
  lhsContracting := [1]
  rhsContracting := [0]
  lhsNonContracting := [0]
  rhsNonContracting := [1]
  lhsBatch := []
  rhsBatch := []
  wf := dot_S16x3_S3x32768_S16x32768_1_0_0_1_n_n_wf
def dot_S16x16_S16x32768_S16x32768_1_0_0_1_n_n : DotDims S16x16 S16x32768 S16x32768 where
  lhsContracting := [1]
  rhsContracting := [0]
  lhsNonContracting := [0]
  rhsNonContracting := [1]
  lhsBatch := []
  rhsBatch := []
  wf := dot_S16x16_S16x32768_S16x32768_1_0_0_1_n_n_wf
def dot_S3x16_S16x32768_S3x32768_1_0_0_1_n_n : DotDims S3x16 S16x32768 S3x32768 where
  lhsContracting := [1]
  rhsContracting := [0]
  lhsNonContracting := [0]
  rhsNonContracting := [1]
  lhsBatch := []
  rhsBatch := []
  wf := dot_S3x16_S16x32768_S3x32768_1_0_0_1_n_n_wf

abbrev win0_0 : Pipeline.Window sig grid0 :=
  Pipeline.Window.ofSpec (Memref.whole main_v15) S3x32768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v17) S3x32768.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v19) S16x3.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v20) S16x3.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v23) S16x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v21) S16x16.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v24) S16x1.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v22) S3x16.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v25) S3x1.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v26) S3x32768.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S1000000x3 : Shape := ⟨2, ![1000000, 3]⟩
abbrev S2x26000000 : Shape := ⟨2, ![2, 26000000]⟩
abbrev S26000000x1 : Shape := ⟨2, ![26000000, 1]⟩
abbrev S1x8 : Shape := ⟨2, ![1, 8]⟩
abbrev S1000000 : Shape := ⟨1, ![1000000]⟩
abbrev S6x16 : Shape := ⟨2, ![6, 16]⟩
abbrev S16 : Shape := ⟨1, ![16]⟩
abbrev S16x16 : Shape := ⟨2, ![16, 16]⟩
abbrev S16x3 : Shape := ⟨2, ![16, 3]⟩
abbrev S3 : Shape := ⟨1, ![3]⟩
abbrev S1x26000000 : Shape := ⟨2, ![1, 26000000]⟩
abbrev S26000000 : Shape := ⟨1, ![26000000]⟩
abbrev S_ : Shape := ⟨0, ![]⟩
abbrev S26000000x3 : Shape := ⟨2, ![26000000, 3]⟩
abbrev S1000000x6 : Shape := ⟨2, ![1000000, 6]⟩
abbrev S1000000x16 : Shape := ⟨2, ![1000000, 16]⟩
abbrev S1x16 : Shape := ⟨2, ![1, 16]⟩
abbrev S1x3 : Shape := ⟨2, ![1, 3]⟩

abbrev nBuf : Space → Nat
  | .hbm => 47
  | .vmem => 0
  | .smem => 0
  | _ => 0

abbrev bufTy : (tb : Table) → Fin (tcTables nBuf tb) → BufTy
  | .hbm, ⟨0, _⟩ => ⟨S1000000x3, .f32⟩
  | .hbm, ⟨1, _⟩ => ⟨S2x26000000, .i32⟩
  | .hbm, ⟨2, _⟩ => ⟨S26000000x1, .f32⟩
  | .hbm, ⟨3, _⟩ => ⟨S1x8, .f32⟩
  | .hbm, ⟨4, _⟩ => ⟨S1000000, .i32⟩
  | .hbm, ⟨5, _⟩ => ⟨S6x16, .f32⟩
  | .hbm, ⟨6, _⟩ => ⟨S16, .f32⟩
  | .hbm, ⟨7, _⟩ => ⟨S16x16, .f32⟩
  | .hbm, ⟨8, _⟩ => ⟨S16, .f32⟩
  | .hbm, ⟨9, _⟩ => ⟨S16x3, .f32⟩
  | .hbm, ⟨10, _⟩ => ⟨S3, .f32⟩
  | .hbm, ⟨11, _⟩ => ⟨S1x26000000, .i32⟩
  | .hbm, ⟨12, _⟩ => ⟨S26000000, .i32⟩
  | .hbm, ⟨13, _⟩ => ⟨S1x26000000, .i32⟩
  | .hbm, ⟨14, _⟩ => ⟨S26000000, .i32⟩
  | .hbm, ⟨15, _⟩ => ⟨S_, .i32⟩
  | .hbm, ⟨16, _⟩ => ⟨S26000000, .i32⟩
  | .hbm, ⟨17, _⟩ => ⟨S26000000, .i1⟩
  | .hbm, ⟨18, _⟩ => ⟨S_, .i32⟩
  | .hbm, ⟨19, _⟩ => ⟨S26000000, .i32⟩
  | .hbm, ⟨20, _⟩ => ⟨S26000000, .i32⟩
  | .hbm, ⟨21, _⟩ => ⟨S26000000, .i32⟩
  | .hbm, ⟨22, _⟩ => ⟨S26000000x1, .i32⟩
  | .hbm, ⟨23, _⟩ => ⟨S26000000x3, .f32⟩
  | .hbm, ⟨24, _⟩ => ⟨S_, .f32⟩
  | .hbm, ⟨25, _⟩ => ⟨S1000000x3, .f32⟩
  | .hbm, ⟨26, _⟩ => ⟨S26000000x1, .i32⟩
  | .hbm, ⟨27, _⟩ => ⟨S1000000x3, .f32⟩
  | .hbm, ⟨28, _⟩ => ⟨S1000000x6, .f32⟩
  | .hbm, ⟨29, _⟩ => ⟨S1000000x16, .f32⟩
  | .hbm, ⟨30, _⟩ => ⟨S1x16, .f32⟩
  | .hbm, ⟨31, _⟩ => ⟨S1000000x16, .f32⟩
  | .hbm, ⟨32, _⟩ => ⟨S1000000x16, .f32⟩
  | .hbm, ⟨33, _⟩ => ⟨S_, .f32⟩
  | .hbm, ⟨34, _⟩ => ⟨S1000000x16, .f32⟩
  | .hbm, ⟨35, _⟩ => ⟨S1000000x16, .f32⟩
  | .hbm, ⟨36, _⟩ => ⟨S1000000x16, .f32⟩
  | .hbm, ⟨37, _⟩ => ⟨S1x16, .f32⟩
  | .hbm, ⟨38, _⟩ => ⟨S1000000x16, .f32⟩
  | .hbm, ⟨39, _⟩ => ⟨S1000000x16, .f32⟩
  | .hbm, ⟨40, _⟩ => ⟨S_, .f32⟩
  | .hbm, ⟨41, _⟩ => ⟨S1000000x16, .f32⟩
  | .hbm, ⟨42, _⟩ => ⟨S1000000x16, .f32⟩
  | .hbm, ⟨43, _⟩ => ⟨S1000000x3, .f32⟩
  | .hbm, ⟨44, _⟩ => ⟨S1x3, .f32⟩
  | .hbm, ⟨45, _⟩ => ⟨S1000000x3, .f32⟩
  | .hbm, ⟨46, _⟩ => ⟨S1000000x3, .f32⟩
  | _, _ => ⟨S1000000x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_call0_cst : Ref sig .tc := ⟨.hbm, 33, rfl⟩
abbrev main_call0_v0 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_call1_cst : Ref sig .tc := ⟨.hbm, 40, rfl⟩
abbrev main_call1_v0 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩

abbrev nD : Nat := 1
abbrev τ : Topo := Topo.v7x

variable {F : FTy → Type} [FloatOps F]

class Facts₀ : Prop where
  slices_S2x26000000_S1x26000000_0_0 : S2x26000000.Slices ![0, 0] S1x26000000
  shapeCasts_S1x26000000_S26000000 : S1x26000000.ShapeCasts S26000000
  slices_S2x26000000_S1x26000000_1_0 : S2x26000000.Slices ![1, 0] S1x26000000
  bcast_S_S26000000 : S_.BroadcastsInDim S26000000 (![] : Fin 0 → Fin S26000000.rank)
  bcast_S26000000_S26000000x1_0 : S26000000.BroadcastsInDim S26000000x1 (![0] : Fin 1 → Fin S26000000x1.rank)
  bcast_S_S1000000x3 : S_.BroadcastsInDim S1000000x3 (![] : Fin 0 → Fin S1000000x3.rank)
  concatenates_S1000000x3_S1000000x3_S1000000x6_d1 : Shape.Concatenates [S1000000x3, S1000000x3] S1000000x6 1
  bcast_S16_S1x16_1 : S16.BroadcastsInDim S1x16 (![1] : Fin 1 → Fin S1x16.rank)
  bcast_S1x16_S1000000x16_0_1 : S1x16.BroadcastsInDim S1000000x16 (![0, 1] : Fin 2 → Fin S1000000x16.rank)
  bcast_S_S1000000x16 : S_.BroadcastsInDim S1000000x16 (![] : Fin 0 → Fin S1000000x16.rank)
  bcast_S3_S1x3_1 : S3.BroadcastsInDim S1x3 (![1] : Fin 1 → Fin S1x3.rank)
  bcast_S1x3_S1000000x3_0_1 : S1x3.BroadcastsInDim S1000000x3 (![0, 1] : Fin 2 → Fin S1000000x3.rank)
  gather_S1000000x3_S26000000x1_S26000000x3_1_0_n_n_0_1_13_wf : GatherDims.WF S1000000x3 S26000000x1 S26000000x3 [1] [0] [] [0] [] 1 ![1, 3]
  scatter_S1000000x3_S26000000x1_S26000000x3_1_0_0_1_wf : ScatterDims.WF S1000000x3 S26000000x1 S26000000x3 [1] [0] [0] 1
  dot_S1000000x6_S6x16_S1000000x16_1_0_0_1_n_n_wf : DotDims.WF S1000000x6 S6x16 S1000000x16 [1] [0] [0] [1] [] []
  dot_S1000000x16_S16x16_S1000000x16_1_0_0_1_n_n_wf : DotDims.WF S1000000x16 S16x16 S1000000x16 [1] [0] [0] [1] [] []
  dot_S1000000x16_S16x3_S1000000x3_1_0_0_1_n_n_wf : DotDims.WF S1000000x16 S16x3 S1000000x3 [1] [0] [0] [1] [] []

variable [Facts₀]

def gather_S1000000x3_S26000000x1_S26000000x3_1_0_n_n_0_1_13 : GatherDims S1000000x3 S26000000x1 S26000000x3 where
  offsetDims := [1]
  collapsedSliceDims := [0]
  operandBatchingDims := []
  startIndicesBatchingDims := []
  startIndexMap := [0]
  indexVectorDim := 1
  sliceSizes := ![1, 3]
  wf := gather_S1000000x3_S26000000x1_S26000000x3_1_0_n_n_0_1_13_wf
def scatter_S1000000x3_S26000000x1_S26000000x3_1_0_0_1 : ScatterDims S1000000x3 S26000000x1 S26000000x3 where
  updateWindowDims := [1]
  insertedWindowDims := [0]
  scatterDimsToOperandDims := [0]
  indexVectorDim := 1
  wf := scatter_S1000000x3_S26000000x1_S26000000x3_1_0_0_1_wf
def dot_S1000000x6_S6x16_S1000000x16_1_0_0_1_n_n : DotDims S1000000x6 S6x16 S1000000x16 where
  lhsContracting := [1]
  rhsContracting := [0]
  lhsNonContracting := [0]
  rhsNonContracting := [1]
  lhsBatch := []
  rhsBatch := []
  wf := dot_S1000000x6_S6x16_S1000000x16_1_0_0_1_n_n_wf
def dot_S1000000x16_S16x16_S1000000x16_1_0_0_1_n_n : DotDims S1000000x16 S16x16 S1000000x16 where
  lhsContracting := [1]
  rhsContracting := [0]
  lhsNonContracting := [0]
  rhsNonContracting := [1]
  lhsBatch := []
  rhsBatch := []
  wf := dot_S1000000x16_S16x16_S1000000x16_1_0_0_1_n_n_wf
def dot_S1000000x16_S16x3_S1000000x3_1_0_0_1_n_n : DotDims S1000000x16 S16x3 S1000000x3 where
  lhsContracting := [1]
  rhsContracting := [0]
  lhsNonContracting := [0]
  rhsNonContracting := [1]
  lhsBatch := []
  rhsBatch := []
  wf := dot_S1000000x16_S16x3_S1000000x3_1_0_0_1_n_n_wf

class Facts : Prop extends Facts₀ where

variable [Facts]
-- ==== Proof.Spec.lean ====
/-
  The node update of a message-passing layer, one node at a time, on the extended reals.

  A node carries three features `xr` and three aggregated neighbour features `ar`. The update is a three-layer
  perceptron: sixteen hidden units `max (A·xr + B·ar + c₁) 0`, sixteen more `max (C·h₁ + c₂) 0`, and three outputs
  `D·h₂ + c₃`. It is written here with the weight on the left of every product and the first layer's six-term
  contraction split into its two halves. The same network written the other way round — the features as a row of six
  on the left of a 6×16 weight matrix, activations on the left of every product — is the same function of the same
  numbers: only commutativity of the product and regrouping of a finite sum are used, and both hold on the extended
  reals without any finiteness assumption.
-/
import Idealize.ShloMosaic.PureOps.Ideal
import Mathlib.Algebra.BigOperators.Fin

noncomputable section

namespace Cert.NodeMlp

/-- First hidden layer at unit `l`: the two half-contractions, the bias, the rectifier. -/
def layer1 (A B : Fin 16 → Fin 3 → EReal) (c : Fin 16 → EReal) (xr ar : Fin 3 → EReal) (l : Fin 16) : EReal :=
  max (((∑ i : Fin 3, A l i * xr i) + (∑ i : Fin 3, B l i * ar i)) + c l) 0

/-- Second hidden layer at unit `k`. -/
def layer2 (C : Fin 16 → Fin 16 → EReal) (c : Fin 16 → EReal) (h : Fin 16 → EReal) (k : Fin 16) : EReal :=
  max ((∑ l : Fin 16, C k l * h l) + c k) 0

/-- Output layer at feature `j`. -/
def layer3 (D : Fin 3 → Fin 16 → EReal) (c : Fin 3 → EReal) (h : Fin 16 → EReal) (j : Fin 3) : EReal :=
  (∑ k : Fin 16, D j k * h k) + c j

/-- The whole update of one node. -/
def mlp (A B : Fin 16 → Fin 3 → EReal) (c1 : Fin 16 → EReal) (C : Fin 16 → Fin 16 → EReal) (c2 : Fin 16 → EReal)
    (D : Fin 3 → Fin 16 → EReal) (c3 : Fin 3 → EReal) (xr ar : Fin 3 → EReal) (j : Fin 3) : EReal :=
  layer3 D c3 (layer2 C c2 (layer1 A B c1 xr ar)) j

/-- A row of six features against a 6×16 matrix is the two half-rows against the matrix's two halves, transposed. -/
theorem layer1_of_row (W : Fin 6 → Fin 16 → EReal) (b : Fin 16 → EReal) (cat : Fin 6 → EReal) (l : Fin 16) :
    max ((∑ k : Fin 6, cat k * W k l) + b l) 0
      = layer1 (fun l i => W (Fin.castAdd 3 i) l) (fun l i => W (Fin.natAdd 3 i) l) b
          (fun i => cat (Fin.castAdd 3 i)) (fun i => cat (Fin.natAdd 3 i)) l := by
  unfold layer1
  have h : (∑ k : Fin 6, cat k * W k l)
      = (∑ i : Fin 3, cat (Fin.castAdd 3 i) * W (Fin.castAdd 3 i) l)
        + ∑ i : Fin 3, cat (Fin.natAdd 3 i) * W (Fin.natAdd 3 i) l :=
    Fin.sum_univ_add (a := 3) (b := 3) (fun k : Fin (3 + 3) => cat k * W k l)
  rw [h]
  have e1 : ∀ i : Fin 3, cat (Fin.castAdd 3 i) * W (Fin.castAdd 3 i) l = W (Fin.castAdd 3 i) l * cat (Fin.castAdd 3 i) :=
    fun i => mul_comm _ _
  have e2 : ∀ i : Fin 3, cat (Fin.natAdd 3 i) * W (Fin.natAdd 3 i) l = W (Fin.natAdd 3 i) l * cat (Fin.natAdd 3 i) :=
    fun i => mul_comm _ _
  rw [Finset.sum_congr rfl (fun i _ => e1 i), Finset.sum_congr rfl (fun i _ => e2 i)]

/-- A row of sixteen activations against a 16×16 matrix is the transposed matrix against the activations. -/
theorem layer2_of_row (W : Fin 16 → Fin 16 → EReal) (b : Fin 16 → EReal) (h : Fin 16 → EReal) (k : Fin 16) :
    max ((∑ l : Fin 16, h l * W l k) + b k) 0 = layer2 (fun k l => W l k) b h k := by
  unfold layer2
  rw [Finset.sum_congr rfl (fun l _ => mul_comm (h l) (W l k))]

/-- A row of sixteen activations against a 16×3 matrix is the transposed matrix against the activations. -/
theorem layer3_of_row (W : Fin 16 → Fin 3 → EReal) (b : Fin 3 → EReal) (h : Fin 16 → EReal) (j : Fin 3) :
    (∑ k : Fin 16, h k * W k j) + b j = layer3 (fun j k => W k j) b h j := by
  unfold layer3
  rw [Finset.sum_congr rfl (fun k _ => mul_comm (h k) (W k j))]

end Cert.NodeMlp

end
-- ==== Proof.LibPlainDot.lean ====
/-
  A plain matrix product read at an index, on the extended reals.

  For the dimension numbers of an M×K by K×N product (contract the left operand's axis 1 with the right operand's
  axis 0, no batch axis), the product at row `r`, column `n` is the sum over the K contraction positions of
  `l (r, k) · r' (k, n)`. The contraction index of the dimension record is a one-coordinate index; it is re-indexed by
  that coordinate, and the operand indices at an output index and a contraction position are read off coordinate by
  coordinate. Stated for a kernel's matrix unit accumulating into the zero splat and for a host `dot_general`.
-/
import Idealize.ShloMosaic.PureOps.Ideal
import Idealize.ShloMosaic.PureOps.Ideal.Laws
import Idealize.ShloMosaic.Lib.ValueIdx

noncomputable section

namespace Cert.LibPlainDot

open Idealize.ShloMosaic Idealize.ShloMosaic.ValueIdx

variable (M K N : Nat)

/-- The contraction shape of a plain product has one axis, -/
theorem contr_rank : (DotDims.plain M K N).contr.rank = 1 := rfl

/-- of extent K. -/
theorem contr_size : (DotDims.plain M K N).contr.size ⟨0, by rw [contr_rank]; exact Nat.one_pos⟩ = K := rfl

/-- The left operand's index at output index `j` and contraction position `k` is (row of `j`, `k`). -/
theorem lhsIdx_eq (j : (⟨2, ![M, N]⟩ : Shape).Idx) (k : Fin K) :
    (DotDims.plain M K N).lhsIdx j ((contrEquiv1 (DotDims.plain M K N) K (contr_rank M K N) (contr_size M K N)).symm k)
      = ix2 (j 0) k := by
  funext a
  apply Fin.ext
  match a with
  | ⟨0, _⟩ => rfl
  | ⟨1, _⟩ =>
    exact ((DotDims.plain M K N).lhsIdx_val_of_single (cl := 1) rfl j _).trans
      (contrEquiv1_symm_val (DotDims.plain M K N) K (contr_rank M K N) (contr_size M K N) k)

/-- The right operand's index at output index `j` and contraction position `k` is (`k`, column of `j`). -/
theorem rhsIdx_eq (j : (⟨2, ![M, N]⟩ : Shape).Idx) (k : Fin K) :
    (DotDims.plain M K N).rhsIdx j ((contrEquiv1 (DotDims.plain M K N) K (contr_rank M K N) (contr_size M K N)).symm k)
      = ix2 k (j 1) := by
  funext a
  apply Fin.ext
  match a with
  | ⟨0, _⟩ =>
    exact ((DotDims.plain M K N).rhsIdx_val_of_single (cr := 0) rfl j _).trans
      (contrEquiv1_symm_val (DotDims.plain M K N) K (contr_rank M K N) (contr_size M K N) k)
  | ⟨1, _⟩ => rfl

/-- The sum over the record's contraction index is the sum over the K positions. -/
theorem sum_contr (l : (⟨2, ![M, K]⟩ : Shape).Idx → EReal) (r : (⟨2, ![K, N]⟩ : Shape).Idx → EReal)
    (j : (⟨2, ![M, N]⟩ : Shape).Idx) :
    ∑ k : (DotDims.plain M K N).contr.Idx, l ((DotDims.plain M K N).lhsIdx j k) * r ((DotDims.plain M K N).rhsIdx j k)
      = ∑ k : Fin K, l (ix2 (j 0) k) * r (ix2 k (j 1)) := by
  rw [← Equiv.sum_comp (contrEquiv1 (DotDims.plain M K N) K (contr_rank M K N) (contr_size M K N)).symm]
  exact Finset.sum_congr rfl fun k _ =>
    congrArg₂ (fun a b => l a * r b) (lhsIdx_eq M K N j k) (rhsIdx_eq M K N j k)

/-- A kernel's matrix unit accumulating into the zero splat, at an index: the plain sum of products. -/
theorem matmul_zero_apply {φ₁ φ₂ : FTy} (prec : Option ContractPrecision)
    (l : FVec Ideal ⟨2, ![M, K]⟩ φ₁) (r : FVec Ideal ⟨2, ![K, N]⟩ φ₂) (j : (⟨2, ![M, N]⟩ : Shape).Idx) :
    FloatOps.matmul (DotDims.plain M K N) prec l r (constant ⟨2, ![M, N]⟩ .f32 0x00000000#32) j
      = ∑ k : Fin K, l (ix2 (j 0) k) * r (ix2 k (j 1)) :=
  (Ideal.matmul_constant_zero_apply (DotDims.plain M K N) prec l r j).trans (sum_contr M K N l r j)

/-- A host `dot_general` at an index: the same sum, whatever the precision and schedule keys. -/
theorem dotGeneral_apply {φ₁ φ₂ : FTy} (prec : Option ContractPrecision) (sched : HostSchedule)
    (l : FVec Ideal ⟨2, ![M, K]⟩ φ₁) (r : FVec Ideal ⟨2, ![K, N]⟩ φ₂) (j : (⟨2, ![M, N]⟩ : Shape).Idx) :
    FloatOps.dotGeneral (DotDims.plain M K N) prec sched l r j
      = ∑ k : Fin K, l (ix2 (j 0) k) * r (ix2 k (j 1)) :=
  (Ideal.dotGeneral_apply (DotDims.plain M K N) prec sched l r j).trans (sum_contr M K N l r j)

end Cert.LibPlainDot

end
-- ==== Proof.LibKeepdims.lean ====
/-
  A row reduction kept as a column (`keepdims`), read by coordinates.

  A lane sum of an `[a, b]` array is, at row `p`, the sum over the lane coordinate `k` of the entry `(p, k)`.
  The sum is then re-laid: cast from `[a]` to the column `[a, 1]` (entry `(i, 0)` is entry `i`), and the column
  broadcast along its unit axis to `[a, b]` (entry `(p, c)` is the column's entry `(p, 0)`). Each lemma states one of
  these three readings at an index written by its coordinates, for any extents.
-/
import Idealize.ShloMosaic.Lib.Pipeline.Value
import Idealize.ShloMosaic.Lib.ValueIdx
import Idealize.ShloMosaic.PureOps.Ideal.Laws

namespace Cert.Keepdims

open Idealize.ShloMosaic Idealize.ShloMosaic.ValueIdx

variable {α : Type}

/-- An `[a]` array cast to the column `[a, 1]` reads, at `(i, u)`, the operand at `i`: both indices have row-major
    position `i`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

/-- A column `[a, 1]` broadcast along its unit axis to `[a, b]` reads, at `(p, c)`, the column's entry in row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A float lane sum of an `[a, b]` array from the zero pattern, read at row `p`, is the sum over the lane coordinate
    `k` of the entry `(p, k)`: on the extended reals the sum has no order and the zero it starts from adds nothing. -/
theorem laneSum_apply {a b : ℕ} (src : FVec Ideal ⟨2, ![a, b]⟩ .f32)
    (h : (⟨2, ![a, b]⟩ : Shape).Reduces [1] ⟨1, ![a]⟩) (hφ : FKind.Formats .f32)
    (hacc : (0x00000000#32 : BitVec 32) = FKind.add.neutral .f32 hφ) (p : Fin a) :
    multiReduction .add [1] ⟨1, ![a]⟩ src 0x00000000#32 h hφ hacc (ix1 p) = ∑ k : Fin b, src (ix2 p k) := by
  refine (Ideal.multiReduction_add_single src _ h hφ hacc (ix1 p)).trans ?_
  refine Finset.sum_congr rfl fun k _ => congrArg src ?_
  funext d
  apply Fin.ext
  match d with
  | ⟨0, _⟩ => rfl
  | ⟨1, _⟩ => rfl

end Cert.Keepdims
-- ==== Proof.Body.lean ====
/-
  One entry of the block a grid point writes back.

  The body loads a block of transposed node features and a block of transposed aggregated features (three rows,
  one column per node), the transposed weight matrices and the bias columns, and stores
  `D·max(C·max(A·x + B·a + c₁, 0) + c₂, 0) + c₃` column by column. Every product is a matrix product accumulated into
  a zero splat, so at a given row and column it is a plain sum over the contraction position; the changes of float
  format are the identity on the extended reals; a bias column broadcast along the node axis reads the column's entry
  in that row. Entry `(j, q)` of the stored block is therefore the perceptron of column `q` of the two feature blocks,
  at output feature `j`.
-/
import proofs.«118746_j21552145891503_2_alg».proof.Proof.Gen.KernelIdeal.Frame
import proofs.«118746_j21552145891503_2_alg».proof.Proof.Spec
import proofs.«118746_j21552145891503_2_alg».proof.Proof.LibPlainDot
import proofs.«118746_j21552145891503_2_alg».proof.Proof.LibKeepdims
import Idealize.ShloMosaic.Lib.Pipeline.Value
import Idealize.ShloMosaic.Lib.ValueIdx
import Idealize.ShloMosaic.PureOps.Ideal.Laws

noncomputable section

namespace Cert.KernelIdeal.Body

open Cert.KernelIdeal Cert.KernelIdeal.Gen Idealize.ShloMosaic Idealize.ShloMosaic.ValueIdx Cert.NodeMlp

theorem zero_offsets : (![0, 0] : Fin 2 → Nat) = fun _ => 0 := funext fun a => by fin_cases a <;> rfl

/-- The three printed contraction records are those of plain matrix products. -/
theorem dims1 : dot_S16x3_S3x32768_S16x32768_1_0_0_1_n_n = DotDims.plain 16 3 32768 := rfl
theorem dims2 : dot_S16x16_S16x32768_S16x32768_1_0_0_1_n_n = DotDims.plain 16 16 32768 := rfl
theorem dims3 : dot_S3x16_S16x32768_S3x32768_1_0_0_1_n_n = DotDims.plain 3 16 32768 := rfl

/-- A plain product into the zero splat at row `p`, column `q`. -/
theorem product_apply (M K N : Nat) {φ₁ φ₂ : FTy} (l : FVec Ideal ⟨2, ![M, K]⟩ φ₁) (r : FVec Ideal ⟨2, ![K, N]⟩ φ₂)
    (p : Fin M) (q : Fin N) :
    matmul (DotDims.plain M K N) none l r (constant ⟨2, ![M, N]⟩ .f32 0x00000000#32) (ix2 p q)
      = ∑ k : Fin K, l (ix2 p k) * r (ix2 k q) :=
  Cert.LibPlainDot.matmul_zero_apply M K N none l r (ix2 p q)

/-- The rectifier's zero is the extended real zero. -/
theorem zero_word : (FloatOps.ofBits .f32 0x00000000#32 : Ideal .f32) = (0 : EReal) := Ideal.ofBits_zero_f32

/-- Entry `(j, q)` of the block the body stores. -/
theorem block_entry (x0 x1 : Vec Ideal S3x32768 .f32) (x2 x3 : Vec Ideal S16x3 .f32) (x4 : Vec Ideal S16x1 .f32)
    (x5 : Vec Ideal S16x16 .f32) (x6 : Vec Ideal S16x1 .f32) (x7 : Vec Ideal S3x16 .f32) (x8 : Vec Ideal S3x1 .f32)
    (j : Fin 3) (q : Fin 32768) :
    out0_9 x0 x1 x2 x3 x4 x5 x6 x7 x8 (ix2 j q)
      = mlp (fun l i => x2 (ix2 l i)) (fun l i => x3 (ix2 l i)) (fun l => x4 (ix2 l (0 : Fin 1)))
          (fun k l => x5 (ix2 k l)) (fun k => x6 (ix2 k (0 : Fin 1)))
          (fun j k => x7 (ix2 j k)) (fun j => x8 (ix2 j (0 : Fin 1)))
          (fun i => x0 (ix2 i q)) (fun i => x1 (ix2 i q)) j := by
  unfold out0_9
  rw [View.canon_unit_zero zero_offsets]
  simp only [View.ld_unit_zero (S := S3x32768) zero_offsets, View.ld_unit_zero (S := S16x3) zero_offsets,
    View.ld_unit_zero (S := S16x1) zero_offsets, View.ld_unit_zero (S := S16x16) zero_offsets,
    View.ld_unit_zero (S := S3x16) zero_offsets, View.ld_unit_zero (S := S3x1) zero_offsets]
  unfold k0_pay1 k0_pay2
  simp only [shapeCast_self, dims1, dims2, dims3]
  rw [addf_apply, product_apply, Cert.Keepdims.broadcastTo_a1_ab_apply]
  unfold mlp layer3
  refine congrArg₂ (· + ·) (Finset.sum_congr rfl fun k _ => ?_) rfl
  rw [truncf_apply, truncf_apply, maximumf_apply, addf_apply, product_apply, Cert.Keepdims.broadcastTo_a1_ab_apply,
    broadcast_apply]
  unfold layer2
  refine congrArg₂ (· * ·) rfl ?_
  refine congrArg₂ max (congrArg₂ (· + ·) (Finset.sum_congr rfl fun l _ => ?_) rfl) zero_word
  rw [truncf_apply, truncf_apply, maximumf_apply, addf_apply, addf_apply, product_apply, product_apply,
    Cert.Keepdims.broadcastTo_a1_ab_apply, broadcast_apply]
  unfold layer1
  refine congrArg₂ (· * ·) rfl ?_
  refine congrArg₂ max (congrArg₂ (· + ·) (congrArg₂ (· + ·) (Finset.sum_congr rfl fun i _ => ?_)
    (Finset.sum_congr rfl fun i _ => ?_)) rfl) zero_word
  · rw [truncf_apply, truncf_apply]
  · rw [truncf_apply, truncf_apply]

end Cert.KernelIdeal.Body

end
-- ==== Proof.Blocks.lean ====
/-
  From blocks to the whole array.

  The grid has 31 points. At point `t` the two feature windows and the output window hold columns
  `32768·t … 32768·t + 32767` of their three-row arrays; the seven weight and bias windows hold their whole arrays at
  every point. So what point `t` writes back is block `t` of one function of the arrays the region finds: column `n`
  of the output is the perceptron of column `n` of the two feature arrays. The 31 blocks tile the 1015808 columns
  (column `n` lies in block `n / 32768`), hence after the run the output array is that function everywhere.
-/
import proofs.«118746_j21552145891503_2_alg».proof.Proof.Gen.KernelIdeal.Frame
import proofs.«118746_j21552145891503_2_alg».proof.Proof.Body
import Idealize.ShloMosaic.Lib.Pipeline.Value
import Idealize.ShloMosaic.Lib.ValueIdx

set_option maxRecDepth 16384

noncomputable section

namespace Cert.KernelIdeal.Blocks

open Cert.KernelIdeal Cert.KernelIdeal.Gen Idealize.ShloMosaic Idealize.ShloMosaic.ValueIdx Idealize.ShloMosaic.TcCoe
open Idealize.SL.Sem Cert.NodeMlp
open Idealize.ShloMosaic.Pipeline (Dat Cfg Window)

variable (m : (ℓ : Loc nD τ sig) → Buf (Elt Ideal) ℓ) (c : Dev nD)

/-- The transposed, padded output as one function of the transposed, padded feature arrays and the kernel's weight
    and bias operands: column by column, the perceptron of that column. -/
def wholeOut (XT AT : S3x1015808.Idx → EReal) (A B : S16x3.Idx → EReal) (c1 : S16x1.Idx → EReal)
    (C : S16x16.Idx → EReal) (c2 : S16x1.Idx → EReal) (D : S3x16.Idx → EReal) (c3 : S3x1.Idx → EReal) :
    S3x1015808.Idx → EReal :=
  fun i => mlp (fun l a => A (ix2 l a)) (fun l a => B (ix2 l a)) (fun l => c1 (ix2 l (0 : Fin 1)))
    (fun k l => C (ix2 k l)) (fun k => c2 (ix2 k (0 : Fin 1))) (fun j k => D (ix2 j k)) (fun j => c3 (ix2 j (0 : Fin 1)))
    (fun a => XT (ix2 a (i 1))) (fun a => AT (ix2 a (i 1))) (i 0)

/-- The printed index maps over the grid: the two feature windows and the output window move one block of columns per
    point; -/
theorem idx0 : ∀ t : Fin cfg0.N, win0_0.index t (0 : Fin 2) = 0 ∧ win0_0.index t (1 : Fin 2) = t.val :=
  (by decide +kernel : ∀ t : Fin grid0.N, _)
theorem idx1 : ∀ t : Fin cfg0.N, win0_1.index t (0 : Fin 2) = 0 ∧ win0_1.index t (1 : Fin 2) = t.val :=
  (by decide +kernel : ∀ t : Fin grid0.N, _)
theorem idx9 : ∀ t : Fin cfg0.N, win0_9.index t (0 : Fin 2) = 0 ∧ win0_9.index t (1 : Fin 2) = t.val :=
  (by decide +kernel : ∀ t : Fin grid0.N, _)
/-- the weight and bias windows stay at block zero; -/
theorem idx2 : ∀ t : Fin cfg0.N, win0_2.index t (0 : Fin 2) = 0 ∧ win0_2.index t (1 : Fin 2) = 0 :=
  (by decide +kernel : ∀ t : Fin grid0.N, _)
theorem idx3 : ∀ t : Fin cfg0.N, win0_3.index t (0 : Fin 2) = 0 ∧ win0_3.index t (1 : Fin 2) = 0 :=
  (by decide +kernel : ∀ t : Fin grid0.N, _)
theorem idx4 : ∀ t : Fin cfg0.N, win0_4.index t (0 : Fin 2) = 0 ∧ win0_4.index t (1 : Fin 2) = 0 :=
  (by decide +kernel : ∀ t : Fin grid0.N, _)
theorem idx5 : ∀ t : Fin cfg0.N, win0_5.index t (0 : Fin 2) = 0 ∧ win0_5.index t (1 : Fin 2) = 0 :=
  (by decide +kernel : ∀ t : Fin grid0.N, _)
theorem idx6 : ∀ t : Fin cfg0.N, win0_6.index t (0 : Fin 2) = 0 ∧ win0_6.index t (1 : Fin 2) = 0 :=
  (by decide +kernel : ∀ t : Fin grid0.N, _)
theorem idx7 : ∀ t : Fin cfg0.N, win0_7.index t (0 : Fin 2) = 0 ∧ win0_7.index t (1 : Fin 2) = 0 :=
  (by decide +kernel : ∀ t : Fin grid0.N, _)
theorem idx8 : ∀ t : Fin cfg0.N, win0_8.index t (0 : Fin 2) = 0 ∧ win0_8.index t (1 : Fin 2) = 0 :=
  (by decide +kernel : ∀ t : Fin grid0.N, _)
/-- and there are 31 points. -/
theorem point_lt : ∀ t : Fin cfg0.N, t.val < 31 := (by decide +kernel : ∀ t : Fin grid0.N, _)

/-- Every block of columns is some point's. -/
theorem idx_onto : ∀ b : Fin 31, ∃ t : Fin cfg0.N, win0_9.index t = ![0, b.val] :=
  (by decide +kernel : ∀ b : Fin 31, ∃ t : Fin grid0.N, win0_9.index t = ![0, b.val])

/-- The first feature block at `(a, q)` is the first feature array at column `32768·t + q`. -/
theorem feat0 (t : Fin cfg0.N) (a : Fin 3) (q : Fin 32768) (n : Fin 1015808) (hn : n.val = t.val * 32768 + q.val) :
    iblk m c 0 t (ix2 a q) = V m c main_v15 (ix2 a n) := by
  obtain ⟨e0, e1⟩ := idx0 t
  show V m c main_v15 (((cfg0.win 0).blk t).view.emb (ix2 a q)) = V m c main_v15 (ix2 a n)
  refine congrArg (V m c main_v15) (funext fun d => Fin.ext ?_)
  match d with
  | ⟨0, _⟩ => show win0_0.index t (0 : Fin 2) * 3 + 1 * a.val = a.val; omega
  | ⟨1, _⟩ => show win0_0.index t (1 : Fin 2) * 32768 + 1 * q.val = n.val; omega

/-- The second feature block likewise. -/
theorem feat1 (t : Fin cfg0.N) (a : Fin 3) (q : Fin 32768) (n : Fin 1015808) (hn : n.val = t.val * 32768 + q.val) :
    iblk m c 1 t (ix2 a q) = V m c main_v17 (ix2 a n) := by
  obtain ⟨e0, e1⟩ := idx1 t
  show V m c main_v17 (((cfg0.win 1).blk t).view.emb (ix2 a q)) = V m c main_v17 (ix2 a n)
  refine congrArg (V m c main_v17) (funext fun d => Fin.ext ?_)
  match d with
  | ⟨0, _⟩ => show win0_1.index t (0 : Fin 2) * 3 + 1 * a.val = a.val; omega
  | ⟨1, _⟩ => show win0_1.index t (1 : Fin 2) * 32768 + 1 * q.val = n.val; omega

/-- Window 2 holds its whole array at every point. -/
theorem whole2 (t : Fin cfg0.N) (p : Fin 16) (q : Fin 3) : iblk m c 2 t (ix2 p q) = V m c main_v19 (ix2 p q) := by
  obtain ⟨e0, e1⟩ := idx2 t
  show V m c main_v19 (((cfg0.win 2).blk t).view.emb (ix2 p q)) = V m c main_v19 (ix2 p q)
  refine congrArg (V m c main_v19) (funext fun d => Fin.ext ?_)
  match d with
  | ⟨0, _⟩ => show win0_2.index t (0 : Fin 2) * 16 + 1 * p.val = p.val; omega
  | ⟨1, _⟩ => show win0_2.index t (1 : Fin 2) * 3 + 1 * q.val = q.val; omega

/-- Window 3 holds its whole array at every point. -/
theorem whole3 (t : Fin cfg0.N) (p : Fin 16) (q : Fin 3) : iblk m c 3 t (ix2 p q) = V m c main_v20 (ix2 p q) := by
  obtain ⟨e0, e1⟩ := idx3 t
  show V m c main_v20 (((cfg0.win 3).blk t).view.emb (ix2 p q)) = V m c main_v20 (ix2 p q)
  refine congrArg (V m c main_v20) (funext fun d => Fin.ext ?_)
  match d with
  | ⟨0, _⟩ => show win0_3.index t (0 : Fin 2) * 16 + 1 * p.val = p.val; omega
  | ⟨1, _⟩ => show win0_3.index t (1 : Fin 2) * 3 + 1 * q.val = q.val; omega

/-- Window 4 holds its whole array at every point. -/
theorem whole4 (t : Fin cfg0.N) (p : Fin 16) (q : Fin 1) : iblk m c 4 t (ix2 p q) = V m c main_v23 (ix2 p q) := by
  obtain ⟨e0, e1⟩ := idx4 t
  show V m c main_v23 (((cfg0.win 4).blk t).view.emb (ix2 p q)) = V m c main_v23 (ix2 p q)
  refine congrArg (V m c main_v23) (funext fun d => Fin.ext ?_)
  match d with
  | ⟨0, _⟩ => show win0_4.index t (0 : Fin 2) * 16 + 1 * p.val = p.val; omega
  | ⟨1, _⟩ => show win0_4.index t (1 : Fin 2) * 1 + 1 * q.val = q.val; omega

/-- Window 5 holds its whole array at every point. -/
theorem whole5 (t : Fin cfg0.N) (p : Fin 16) (q : Fin 16) : iblk m c 5 t (ix2 p q) = V m c main_v21 (ix2 p q) := by
  obtain ⟨e0, e1⟩ := idx5 t
  show V m c main_v21 (((cfg0.win 5).blk t).view.emb (ix2 p q)) = V m c main_v21 (ix2 p q)
  refine congrArg (V m c main_v21) (funext fun d => Fin.ext ?_)
  match d with
  | ⟨0, _⟩ => show win0_5.index t (0 : Fin 2) * 16 + 1 * p.val = p.val; omega
  | ⟨1, _⟩ => show win0_5.index t (1 : Fin 2) * 16 + 1 * q.val = q.val; omega

/-- Window 6 holds its whole array at every point. -/
theorem whole6 (t : Fin cfg0.N) (p : Fin 16) (q : Fin 1) : iblk m c 6 t (ix2 p q) = V m c main_v24 (ix2 p q) := by
  obtain ⟨e0, e1⟩ := idx6 t
  show V m c main_v24 (((cfg0.win 6).blk t).view.emb (ix2 p q)) = V m c main_v24 (ix2 p q)
  refine congrArg (V m c main_v24) (funext fun d => Fin.ext ?_)
  match d with
  | ⟨0, _⟩ => show win0_6.index t (0 : Fin 2) * 16 + 1 * p.val = p.val; omega
  | ⟨1, _⟩ => show win0_6.index t (1 : Fin 2) * 1 + 1 * q.val = q.val; omega

/-- Window 7 holds its whole array at every point. -/
theorem whole7 (t : Fin cfg0.N) (p : Fin 3) (q : Fin 16) : iblk m c 7 t (ix2 p q) = V m c main_v22 (ix2 p q) := by
  obtain ⟨e0, e1⟩ := idx7 t
  show V m c main_v22 (((cfg0.win 7).blk t).view.emb (ix2 p q)) = V m c main_v22 (ix2 p q)
  refine congrArg (V m c main_v22) (funext fun d => Fin.ext ?_)
  match d with
  | ⟨0, _⟩ => show win0_7.index t (0 : Fin 2) * 3 + 1 * p.val = p.val; omega
  | ⟨1, _⟩ => show win0_7.index t (1 : Fin 2) * 16 + 1 * q.val = q.val; omega

/-- Window 8 holds its whole array at every point. -/
theorem whole8 (t : Fin cfg0.N) (p : Fin 3) (q : Fin 1) : iblk m c 8 t (ix2 p q) = V m c main_v25 (ix2 p q) := by
  obtain ⟨e0, e1⟩ := idx8 t
  show V m c main_v25 (((cfg0.win 8).blk t).view.emb (ix2 p q)) = V m c main_v25 (ix2 p q)
  refine congrArg (V m c main_v25) (funext fun d => Fin.ext ?_)
  match d with
  | ⟨0, _⟩ => show win0_8.index t (0 : Fin 2) * 3 + 1 * p.val = p.val; omega
  | ⟨1, _⟩ => show win0_8.index t (1 : Fin 2) * 1 + 1 * q.val = q.val; omega

/-- Entry `(j, q)` of the output block at point `t` sits at column `32768·t + q` of the output array. -/
theorem out_emb (t : Fin cfg0.N) (j : Fin 3) (q : Fin 32768) (n : Fin 1015808) (hn : n.val = t.val * 32768 + q.val) :
    ((cfg0.win 9).blk t).view.emb (ix2 j q) = (ix2 j n : S3x1015808.Idx) := by
  obtain ⟨e0, e1⟩ := idx9 t
  refine funext fun d => Fin.ext ?_
  match d with
  | ⟨0, _⟩ => show win0_9.index t (0 : Fin 2) * 3 + 1 * j.val = j.val; omega
  | ⟨1, _⟩ => show win0_9.index t (1 : Fin 2) * 32768 + 1 * q.val = n.val; omega

/-- What point `t` writes back is block `t` of the whole-array function. -/
theorem flushed_eq (t : Fin cfg0.N) :
    (dats m 0 c).flushed 9 t = ((cfg0.win 9).blk t).view.read (Elt Ideal) (wholeOut (V m c main_v15) (V m c main_v17) (V m c main_v19) (V m c main_v20) (V m c main_v23) (V m c main_v21) (V m c main_v24) (V m c main_v22) (V m c main_v25)) := by
  show (cfg0.win 9).cut (grid0.coords t) ((dats m 0 c).after 9 t) = _
  rw [after0_9]
  funext y
  obtain ⟨j, q, rfl⟩ : ∃ (j : Fin 3) (q : Fin 32768), y = ix2 j q := ⟨y 0, y 1, eq_ix2 y⟩
  have ht := point_lt t
  have hn : t.val * 32768 + q.val < 1015808 := by have := q.isLt; omega
  show out0_9 (iblk m c 0 t) (iblk m c 1 t) (iblk m c 2 t) (iblk m c 3 t) (iblk m c 4 t) (iblk m c 5 t) (iblk m c 6 t) (iblk m c 7 t) (iblk m c 8 t) (ix2 j q)
    = wholeOut (V m c main_v15) (V m c main_v17) (V m c main_v19) (V m c main_v20) (V m c main_v23) (V m c main_v21) (V m c main_v24) (V m c main_v22) (V m c main_v25) (((cfg0.win 9).blk t).view.emb (ix2 j q))
  rw [out_emb t j q ⟨_, hn⟩ rfl]
  refine (Cert.KernelIdeal.Body.block_entry (iblk m c 0 t) (iblk m c 1 t) (iblk m c 2 t) (iblk m c 3 t) (iblk m c 4 t) (iblk m c 5 t) (iblk m c 6 t) (iblk m c 7 t) (iblk m c 8 t) j q).trans ?_
  unfold wholeOut
  simp only [feat0 m c t _ q ⟨_, hn⟩ rfl, feat1 m c t _ q ⟨_, hn⟩ rfl, whole2 m c t, whole3 m c t, whole4 m c t,
    whole5 m c t, whole6 m c t, whole7 m c t, whole8 m c t]

/-- An index of the output array is in point `t`'s block iff each coordinate is in the block's range on its axis. -/
theorem mem_blk (t : Fin cfg0.N) (i : S3x1015808.Idx) :
    i ∈ ((cfg0.win 9).blk t).view.set ↔ ∀ a : Fin 2, win0_9.index t a * S3x32768.size a ≤ (i a).val
      ∧ (i a).val < win0_9.index t a * S3x32768.size a + S3x32768.size a := by
  show i ∈ ((View.whole main_v26).slice (win0_9.rect t)).set ↔ _
  rw [View.set_slice_whole, Rect.mem_set_unit]
  exact Iff.rfl

/-- Column `n` lies in the block of point `n / 32768`: the blocks cover the array. -/
theorem cover (i : S3x1015808.Idx) :
    ∃ t : Fin cfg0.N, (cfg0.win 9).flush t = true ∧ i ∈ ((cfg0.win 9).blk t).view.set := by
  have hi0 : (i 0).val < 3 := (i 0).isLt
  have hi1 : (i 1).val < 1015808 := (i 1).isLt
  obtain ⟨t, ht⟩ := idx_onto ⟨(i 1).val / 32768, by omega⟩
  have q0 : win0_9.index t (0 : Fin 2) = 0 := congrFun ht 0
  have q1 : win0_9.index t (1 : Fin 2) = (i 1).val / 32768 := congrFun ht 1
  refine ⟨t, flush0_9 t, ?_⟩
  rw [mem_blk]
  intro a
  match a with
  | ⟨0, _⟩ =>
    show win0_9.index t (0 : Fin 2) * 3 ≤ (i 0).val ∧ (i 0).val < win0_9.index t (0 : Fin 2) * 3 + 3; omega
  | ⟨1, _⟩ =>
    show win0_9.index t (1 : Fin 2) * 32768 ≤ (i 1).val ∧ (i 1).val < win0_9.index t (1 : Fin 2) * 32768 + 32768; omega

/-- The output array after the run. -/
theorem final : (dats m 0 c).arrAt 9 cfg0.N = wholeOut (V m c main_v15) (V m c main_v17) (V m c main_v19) (V m c main_v20) (V m c main_v23) (V m c main_v21) (V m c main_v24) (V m c main_v22) (V m c main_v25) :=
  (dats m 0 c).arrAt_eq_of_cover 9 _ (fun t _ => flushed_eq m c t) (fun i => cover i)

end Cert.KernelIdeal.Blocks

end
-- ==== Proof.Entry.lean ====
/-
  The arrays the region finds.

  Before the region the host transposes the node features and the aggregated neighbour features to three rows and pads
  both with 15808 zero columns; it transposes the first weight matrix and cuts it into its left and right three columns,
  transposes the other two weight matrices, and turns each bias vector into a column. Read at coordinates: column
  `n < 1000000` of a padded feature array is row `n` of the unpadded one; entry `(l, a)` of the left (right) cut is
  entry `(a, l)` (entry `(3 + a, l)`) of the first weight matrix; a transposed matrix swaps its coordinates; a bias
  column's entry `(l, 0)` is the vector's entry `l`. The aggregated features — each edge's source row gathered and
  summed into the edge's target row — are the same host operations in the reference, and are named by that stage.
-/
import proofs.«118746_j21552145891503_2_alg».proof.Proof.Gen.KernelIdeal.Frame
import proofs.«118746_j21552145891503_2_alg».proof.Proof.Gen.ReferenceIdeal.Read
import proofs.«118746_j21552145891503_2_alg».proof.Proof.LibKeepdims
import Idealize.ShloMosaic.Lib.StableHlo.Run
import Idealize.ShloMosaic.Lib.Pipeline.Value
import Idealize.ShloMosaic.Lib.ValueIdx
import Idealize.ShloMosaic.Lib.ValueLayout
import Idealize.ShloMosaic.Lib.KernelVsHost

noncomputable section

namespace Cert.KernelIdeal.Entry

open Cert.KernelIdeal Cert.KernelIdeal.Gen Idealize.ShloMosaic Idealize.ShloMosaic.ValueIdx Idealize.ShloMosaic.TcCoe
open Idealize.SL.Sem Idealize.ShloMosaic.StableHlo

variable (m : (ℓ : Loc nD τ sig) → Buf (Elt Ideal) ℓ) (c : Dev nD)

/-- The kernel program's gather and scatter-add of the node features along the edges is the reference's stage: the
    same operations on the same operands. -/
theorem agg_stage (x : (⟨S1000000x3, .f32⟩ : BufTy).Contents (Elt Ideal)) (ei : (⟨S2x26000000, .i32⟩ : BufTy).Contents (Elt Ideal)) :
    (Host.scatterAdd (F := Ideal) scatter_S1000000x3_S26000000x1_S26000000x3_1_0_0_1 (broadcastInDim S1000000x3 ![] bcast_S_S1000000x3 (constant (F := Ideal) S_ .f32 0x00000000#32)) (broadcastInDim S26000000x1 ![0] bcast_S26000000_S26000000x1_0 (shapeCast _ (extractStridedSlice S1x26000000 ![1, 0] ei slices_S2x26000000_S1x26000000_1_0) shapeCasts_S1x26000000_S26000000)) (Host.gather gather_S1000000x3_S26000000x1_S26000000x3_1_0_n_n_0_1_13 x (broadcastInDim S26000000x1 ![0] bcast_S26000000_S26000000x1_0 (select (cmpi .slt (shapeCast _ (extractStridedSlice S1x26000000 ![0, 0] ei slices_S2x26000000_S1x26000000_0_0) shapeCasts_S1x26000000_S26000000) (broadcastInDim S26000000 ![] bcast_S_S26000000 (constantI S_ 32 0#32))) (addi (shapeCast _ (extractStridedSlice S1x26000000 ![0, 0] ei slices_S2x26000000_S1x26000000_0_0) shapeCasts_S1x26000000_S26000000) (broadcastInDim S26000000 ![] bcast_S_S26000000 (constantI S_ 32 1000000#32))) (shapeCast _ (extractStridedSlice S1x26000000 ![0, 0] ei slices_S2x26000000_S1x26000000_0_0) shapeCasts_S1x26000000_S26000000)))))
      = Cert.ReferenceIdeal.Read.val_main_v13 (F := Ideal) x ei := rfl

/-! ## The padded, transposed feature arrays -/

theorem V_v15 : (V m c main_v15 : S3x1015808.Idx → Elt Ideal .f32)
    = pad S3x1015808 ![0, 0] ![0, 15808] ![0, 0] (transpose S3x1000000 [1, 0] (m ((c : Thread nD τ).loc main_arg0)) transposes_S1000000x3_S3x1000000_1_0)
        (sitofp (F := Ideal) .f32 (constantI S_ 32 0#32)) pads_S3x1000000_S3x1015808_000_0158080 h_S_ := by
  dsimp only [Gen.V, Gen.V0]
  simp only [hostOps0, hostOps0_1, hostOps0_2, hostOps0_3, hostOps0_4, List.flatten_cons, List.flatten_nil, List.append_nil, List.cons_append, List.nil_append]
  after_results
  rfl

/-! The aggregated features reach the second feature window through four later stretches of host operations. Each
    stretch is read over an arbitrary earlier valuation: what it leaves in a buffer depends only on its own operations
    and on what the buffers held before it. -/

/-- Running two stretches in a row is running the second after the first. -/
theorem after_append (l1 l2 : List (HloOp τ sig (Elt Ideal))) (Vx : Valuation τ sig (Elt Ideal)) :
    StableHlo.after (l1 ++ l2) Vx = StableHlo.after l2 (StableHlo.after l1 Vx) := by
  induction l1 generalizing Vx with
  | nil => rfl
  | cons op ops ih => exact ih _

/-- The first stretch leaves the aggregated features in their buffer. -/
theorem stage0_agg :
    (StableHlo.after (hostOps0 (F := Ideal)) (fun b => m (c, b)) (Proc.devRef .tc main_v13) : S1000000x3.Idx → Elt Ideal .f32)
      = (Host.scatterAdd (F := Ideal) scatter_S1000000x3_S26000000x1_S26000000x3_1_0_0_1 (broadcastInDim S1000000x3 ![] bcast_S_S1000000x3 (constant (F := Ideal) S_ .f32 0x00000000#32)) (broadcastInDim S26000000x1 ![0] bcast_S26000000_S26000000x1_0 (shapeCast _ (extractStridedSlice S1x26000000 ![1, 0] (m ((c : Thread nD τ).loc main_arg1)) slices_S2x26000000_S1x26000000_1_0) shapeCasts_S1x26000000_S26000000)) (Host.gather gather_S1000000x3_S26000000x1_S26000000x3_1_0_n_n_0_1_13 (m ((c : Thread nD τ).loc main_arg0)) (broadcastInDim S26000000x1 ![0] bcast_S26000000_S26000000x1_0 (select (cmpi .slt (shapeCast _ (extractStridedSlice S1x26000000 ![0, 0] (m ((c : Thread nD τ).loc main_arg1)) slices_S2x26000000_S1x26000000_0_0) shapeCasts_S1x26000000_S26000000) (broadcastInDim S26000000 ![] bcast_S_S26000000 (constantI S_ 32 0#32))) (addi (shapeCast _ (extractStridedSlice S1x26000000 ![0, 0] (m ((c : Thread nD τ).loc main_arg1)) slices_S2x26000000_S1x26000000_0_0) shapeCasts_S1x26000000_S26000000) (broadcastInDim S26000000 ![] bcast_S_S26000000 (constantI S_ 32 1000000#32))) (shapeCast _ (extractStridedSlice S1x26000000 ![0, 0] (m ((c : Thread nD τ).loc main_arg1)) slices_S2x26000000_S1x26000000_0_0) shapeCasts_S1x26000000_S26000000))))) := by
  simp only [hostOps0]
  after_results_simp
  rfl

/-- The first padding call does not touch them. -/
theorem stage1_keeps (Vx : Valuation τ sig (Elt Ideal)) :
    StableHlo.after (hostOps0_1 (F := Ideal)) Vx (Proc.devRef .tc main_v13) = Vx (Proc.devRef .tc main_v13) := by
  simp only [hostOps0_1]
  after_results

/-- The third stretch transposes them. -/
theorem stage2_transposed (Vx : Valuation τ sig (Elt Ideal)) :
    (StableHlo.after (hostOps0_2 (F := Ideal)) Vx (Proc.devRef .tc main_v16) : S3x1000000.Idx → Elt Ideal .f32)
      = transpose S3x1000000 [1, 0] (Vx (Proc.devRef .tc main_v13) : S1000000x3.Idx → Elt Ideal .f32)
          transposes_S1000000x3_S3x1000000_1_0 := by
  simp only [hostOps0_2]
  after_results <;> rfl

/-- The second padding call pads the transposed array (with whatever its filler operand holds). -/
theorem stage3_padded (Vx : Valuation τ sig (Elt Ideal)) :
    ∃ v : S_.Idx → Elt Ideal .f32,
      (StableHlo.after (hostOps0_3 (F := Ideal)) Vx (Proc.devRef .tc main_v17) : S3x1015808.Idx → Elt Ideal .f32)
        = pad S3x1015808 ![0, 0] ![0, 15808] ![0, 0] (Vx (Proc.devRef .tc main_v16) : S3x1000000.Idx → Elt Ideal .f32) v
            pads_S3x1000000_S3x1015808_000_0158080 h_S_ := by
  refine ⟨sitofp (F := Ideal) .f32 (Vx (Proc.devRef .tc main_c_2) : S_.Idx → BitVec 32), ?_⟩
  simp only [hostOps0_3]
  after_results <;> rfl

/-- The last stretch does not touch the padded array. -/
theorem stage4_keeps (Vx : Valuation τ sig (Elt Ideal)) :
    StableHlo.after (hostOps0_4 (F := Ideal)) Vx (Proc.devRef .tc main_v17) = Vx (Proc.devRef .tc main_v17) := by
  simp only [hostOps0_4]
  after_results

theorem V_v17 : ∃ v : S_.Idx → Elt Ideal .f32, (V m c main_v17 : S3x1015808.Idx → Elt Ideal .f32)
    = pad S3x1015808 ![0, 0] ![0, 15808] ![0, 0]
        (transpose S3x1000000 [1, 0] (Cert.ReferenceIdeal.Read.val_main_v13 (F := Ideal) (m ((c : Thread nD τ).loc main_arg0)) (m ((c : Thread nD τ).loc main_arg1))) transposes_S1000000x3_S3x1000000_1_0)
        v pads_S3x1000000_S3x1015808_000_0158080 h_S_ := by
  obtain ⟨v, hv⟩ := stage3_padded (StableHlo.after (hostOps0_2 (F := Ideal)) (StableHlo.after (hostOps0_1 (F := Ideal))
    (StableHlo.after (hostOps0 (F := Ideal)) (fun b => m (c, b)))))
  refine ⟨v, ?_⟩
  rw [← agg_stage, ← stage0_agg m c]
  dsimp only [Gen.V, Gen.V0]
  simp only [List.flatten_cons, List.flatten_nil, List.append_nil]
  rw [after_append, after_append, after_append, after_append, stage4_keeps, hv, stage2_transposed, stage1_keeps]

/-- A padded, transposed array at row `a`, column `n` below the unpadded width, is the original at `(n, a)`. -/
theorem padded_transposed_apply (x : S1000000x3.Idx → EReal) (v : S_.Idx → EReal) (a : Fin 3) (n : Fin 1015808)
    (n' : Fin 1000000) (h : n.val = n'.val) :
    pad S3x1015808 ![0, 0] ![0, 15808] ![0, 0] (transpose S3x1000000 [1, 0] x transposes_S1000000x3_S3x1000000_1_0) v
        pads_S3x1000000_S3x1015808_000_0158080 h_S_ (ix2 a n) = x (ix2 n' a) := by
  rw [pad_apply_of_inside ![0, 0] ![0, 15808] ![0, 0] _ v pads_S3x1000000_S3x1015808_000_0158080 h_S_ (ix2 a n) (ix2 a n')
    (fun d => match d with
      | ⟨0, _⟩ => by show a.val = 0 + a.val * (0 + 1); omega
      | ⟨1, _⟩ => by show n.val = 0 + n'.val * (0 + 1); omega)]
  exact transpose_ix2_apply x transposes_S1000000x3_S3x1000000_1_0 a n'

theorem feat_x (a : Fin 3) (n : Fin 1015808) (n' : Fin 1000000) (h : n.val = n'.val) :
    V m c main_v15 (ix2 a n) = (m ((c : Thread nD τ).loc main_arg0)) (ix2 n' a) := by
  rw [V_v15]; exact padded_transposed_apply _ _ a n n' h

theorem feat_agg (a : Fin 3) (n : Fin 1015808) (n' : Fin 1000000) (h : n.val = n'.val) :
    V m c main_v17 (ix2 a n) = Cert.ReferenceIdeal.Read.val_main_v13 (F := Ideal) (m ((c : Thread nD τ).loc main_arg0)) (m ((c : Thread nD τ).loc main_arg1)) (ix2 n' a) := by
  obtain ⟨v, hv⟩ := V_v17 m c
  rw [hv]; exact padded_transposed_apply _ _ a n n' h

end Cert.KernelIdeal.Entry

end
-- ==== Proof.Weights.lean ====
/-
  The weight and bias operands the region finds.

  The first weight matrix is transposed and cut into its left and right three columns, so entry `(l, a)` of the left
  cut is entry `(a, l)` of the matrix and entry `(l, a)` of the right cut is entry `(3 + a, l)`. The second and third
  matrices are transposed. Each bias vector becomes a column whose entry `(l, 0)` is the vector's entry `l`.
-/
import proofs.«118746_j21552145891503_2_alg».proof.Proof.Gen.KernelIdeal.Frame
import proofs.«118746_j21552145891503_2_alg».proof.Proof.LibKeepdims
import Idealize.ShloMosaic.Lib.StableHlo.Run
import Idealize.ShloMosaic.Lib.Pipeline.Value
import Idealize.ShloMosaic.Lib.ValueIdx
import Idealize.ShloMosaic.Lib.ValueLayout

noncomputable section

namespace Cert.KernelIdeal.Weights

open Cert.KernelIdeal Cert.KernelIdeal.Gen Idealize.ShloMosaic Idealize.ShloMosaic.ValueIdx Idealize.ShloMosaic.TcCoe
open Idealize.SL.Sem Idealize.ShloMosaic.StableHlo

variable (m : (ℓ : Loc nD τ sig) → Buf (Elt Ideal) ℓ) (c : Dev nD)

theorem V_v19 : (V m c main_v19 : S16x3.Idx → Elt Ideal .f32)
    = extractStridedSlice S16x3 ![0, 0] (transpose S16x6 [1, 0] (m ((c : Thread nD τ).loc main_arg5)) transposes_S6x16_S16x6_1_0) slices_S16x6_S16x3_0_0 := by
  dsimp only [Gen.V, Gen.V0]
  simp only [hostOps0, hostOps0_1, hostOps0_2, hostOps0_3, hostOps0_4, List.flatten_cons, List.flatten_nil, List.append_nil, List.cons_append, List.nil_append]
  after_results <;> rfl

theorem V_v20 : (V m c main_v20 : S16x3.Idx → Elt Ideal .f32)
    = extractStridedSlice S16x3 ![0, 3] (transpose S16x6 [1, 0] (m ((c : Thread nD τ).loc main_arg5)) transposes_S6x16_S16x6_1_0) slices_S16x6_S16x3_0_3 := by
  dsimp only [Gen.V, Gen.V0]
  simp only [hostOps0, hostOps0_1, hostOps0_2, hostOps0_3, hostOps0_4, List.flatten_cons, List.flatten_nil, List.append_nil, List.cons_append, List.nil_append]
  after_results <;> rfl

theorem V_v21 : (V m c main_v21 : S16x16.Idx → Elt Ideal .f32)
    = transpose S16x16 [1, 0] (m ((c : Thread nD τ).loc main_arg7)) transposes_S16x16_S16x16_1_0 := by
  dsimp only [Gen.V, Gen.V0]
  simp only [hostOps0, hostOps0_1, hostOps0_2, hostOps0_3, hostOps0_4, List.flatten_cons, List.flatten_nil, List.append_nil, List.cons_append, List.nil_append]
  after_results <;> rfl

theorem V_v22 : (V m c main_v22 : S3x16.Idx → Elt Ideal .f32)
    = transpose S3x16 [1, 0] (m ((c : Thread nD τ).loc main_arg9)) transposes_S16x3_S3x16_1_0 := by
  dsimp only [Gen.V, Gen.V0]
  simp only [hostOps0, hostOps0_1, hostOps0_2, hostOps0_3, hostOps0_4, List.flatten_cons, List.flatten_nil, List.append_nil, List.cons_append, List.nil_append]
  after_results <;> rfl

theorem V_v23 : (V m c main_v23 : S16x1.Idx → Elt Ideal .f32) = shapeCast S16x1 (m ((c : Thread nD τ).loc main_arg6)) shapeCasts_S16_S16x1 := by
  dsimp only [Gen.V, Gen.V0]
  simp only [hostOps0, hostOps0_1, hostOps0_2, hostOps0_3, hostOps0_4, List.flatten_cons, List.flatten_nil, List.append_nil, List.cons_append, List.nil_append]
  after_results <;> rfl

theorem V_v24 : (V m c main_v24 : S16x1.Idx → Elt Ideal .f32) = shapeCast S16x1 (m ((c : Thread nD τ).loc main_arg8)) shapeCasts_S16_S16x1 := by
  dsimp only [Gen.V, Gen.V0]
  simp only [hostOps0, hostOps0_1, hostOps0_2, hostOps0_3, hostOps0_4, List.flatten_cons, List.flatten_nil, List.append_nil, List.cons_append, List.nil_append]
  after_results <;> rfl

theorem V_v25 : (V m c main_v25 : S3x1.Idx → Elt Ideal .f32) = shapeCast S3x1 (m ((c : Thread nD τ).loc main_arg10)) shapeCasts_S3_S3x1 := by
  dsimp only [Gen.V, Gen.V0]
  simp only [hostOps0, hostOps0_1, hostOps0_2, hostOps0_3, hostOps0_4, List.flatten_cons, List.flatten_nil, List.append_nil, List.cons_append, List.nil_append]
  after_results <;> rfl

/-- The left cut of the transposed first weight matrix. -/
theorem w1_left (l : Fin 16) (a : Fin 3) :
    V m c main_v19 (ix2 l a) = (m ((c : Thread nD τ).loc main_arg5)) (ix2 (Fin.castAdd 3 a : Fin 6) l) := by
  rw [V_v19, extractStridedSlice_apply ![0, 0] _ slices_S16x6_S16x3_0_0 (ix2 l a) (ix2 l (Fin.castAdd 3 a : Fin 6))
    (fun d => match d with
      | ⟨0, _⟩ => by show l.val = 0 + l.val; omega
      | ⟨1, _⟩ => by show a.val = 0 + a.val; omega)]
  exact transpose_ix2_apply _ transposes_S6x16_S16x6_1_0 l (Fin.castAdd 3 a : Fin 6)

/-- The right cut. -/
theorem w1_right (l : Fin 16) (a : Fin 3) :
    V m c main_v20 (ix2 l a) = (m ((c : Thread nD τ).loc main_arg5)) (ix2 (Fin.natAdd 3 a : Fin 6) l) := by
  rw [V_v20, extractStridedSlice_apply ![0, 3] _ slices_S16x6_S16x3_0_3 (ix2 l a) (ix2 l (Fin.natAdd 3 a : Fin 6))
    (fun d => match d with
      | ⟨0, _⟩ => by show l.val = 0 + l.val; omega
      | ⟨1, _⟩ => by show 3 + a.val = 3 + a.val; rfl)]
  exact transpose_ix2_apply _ transposes_S6x16_S16x6_1_0 l (Fin.natAdd 3 a : Fin 6)

theorem w2_t (k l : Fin 16) : V m c main_v21 (ix2 k l) = (m ((c : Thread nD τ).loc main_arg7)) (ix2 l k) := by
  rw [V_v21]; exact transpose_ix2_apply _ transposes_S16x16_S16x16_1_0 k l

theorem w3_t (j : Fin 3) (k : Fin 16) : V m c main_v22 (ix2 j k) = (m ((c : Thread nD τ).loc main_arg9)) (ix2 k j) := by
  rw [V_v22]; exact transpose_ix2_apply _ transposes_S16x3_S3x16_1_0 j k

theorem b1_col (l : Fin 16) : V m c main_v23 (ix2 l (0 : Fin 1)) = (m ((c : Thread nD τ).loc main_arg6)) (ix1 l) := by
  rw [V_v23]; exact Cert.Keepdims.shapeCast_a_a1_apply _ shapeCasts_S16_S16x1 l 0

theorem b2_col (k : Fin 16) : V m c main_v24 (ix2 k (0 : Fin 1)) = (m ((c : Thread nD τ).loc main_arg8)) (ix1 k) := by
  rw [V_v24]; exact Cert.Keepdims.shapeCast_a_a1_apply _ shapeCasts_S16_S16x1 k 0

theorem b3_col (j : Fin 3) : V m c main_v25 (ix2 j (0 : Fin 1)) = (m ((c : Thread nD τ).loc main_arg10)) (ix1 j) := by
  rw [V_v25]; exact Cert.Keepdims.shapeCast_a_a1_apply _ shapeCasts_S3_S3x1 j 0

end Cert.KernelIdeal.Weights

end
-- ==== Proof.Result.lean ====
/-
  The layer's result as one function of its arguments.

  Row `n` of the result is the perceptron of node `n`: its three features and three aggregated neighbour features go
  through `max(·W₁ + b₁, 0)`, `max(·W₂ + b₂, 0)`, `·W₃ + b₃`. Written with the weights on the left, the first weight
  matrix enters as its top three rows (against the node's own features) and its bottom three rows (against the
  aggregated ones), every matrix transposed.
-/
import proofs.«118746_j21552145891503_2_alg».proof.Proof.Spec
import Idealize.ShloMosaic.Lib.ValueIdx

noncomputable section

namespace Cert.NodeMlp

open Idealize.ShloMosaic Idealize.ShloMosaic.ValueIdx

/-- Entry `(n, j)` of the result from the node features `x`, the aggregated features `agg`, and the parameters. -/
def result (x agg : (⟨2, ![1000000, 3]⟩ : Shape).Idx → EReal) (W1 : (⟨2, ![6, 16]⟩ : Shape).Idx → EReal)
    (b1 : (⟨1, ![16]⟩ : Shape).Idx → EReal) (W2 : (⟨2, ![16, 16]⟩ : Shape).Idx → EReal)
    (b2 : (⟨1, ![16]⟩ : Shape).Idx → EReal) (W3 : (⟨2, ![16, 3]⟩ : Shape).Idx → EReal)
    (b3 : (⟨1, ![3]⟩ : Shape).Idx → EReal) : (⟨2, ![1000000, 3]⟩ : Shape).Idx → EReal :=
  fun i => mlp (fun l a => W1 (ix2 (Fin.castAdd 3 a : Fin 6) l)) (fun l a => W1 (ix2 (Fin.natAdd 3 a : Fin 6) l))
    (fun l => b1 (ix1 l)) (fun k l => W2 (ix2 l k)) (fun k => b2 (ix1 k)) (fun j k => W3 (ix2 k j))
    (fun j => b3 (ix1 j)) (fun a => x (ix2 (i 0) a)) (fun a => agg (ix2 (i 0) a)) (i 1)

end Cert.NodeMlp

end
-- ==== Proof.KernelValue.lean ====
/-
  The kernel program's run, with its result named.

  After the region the host cuts the 15808 padding columns off the three-row output and transposes it back to one
  row per node. So row `n`, feature `j` of the result is entry `(j, n)` of the region's output array, which is the
  perceptron of column `n` of the padded, transposed feature arrays; and below the unpadded width those columns are
  the rows of the node features and of the aggregated features. With the weight and bias operands read back to the
  parameters, the result is the layer's result function of the arguments.
-/
import proofs.«118746_j21552145891503_2_alg».proof.Proof.Gen.KernelIdeal.Frame
import proofs.«118746_j21552145891503_2_alg».proof.Proof.Blocks
import proofs.«118746_j21552145891503_2_alg».proof.Proof.Entry
import proofs.«118746_j21552145891503_2_alg».proof.Proof.Weights
import proofs.«118746_j21552145891503_2_alg».proof.Proof.Result
import Idealize.ShloMosaic.Lib.StableHlo.Run
import Idealize.ShloMosaic.Lib.Pipeline.Value
import Idealize.ShloMosaic.Lib.ValueIdx
import Idealize.ShloMosaic.Lib.ValueLayout

noncomputable section

namespace Cert.KernelIdeal.KernelValue

open Cert.KernelIdeal Cert.KernelIdeal.Gen Idealize.ShloMosaic Idealize.ShloMosaic.ValueIdx Idealize.ShloMosaic.TcCoe
open Idealize.SL.Sem Idealize.ShloMosaic.StableHlo Cert.NodeMlp

variable (m : (ℓ : Loc nD τ sig) → Buf (Elt Ideal) ℓ) (ρ : Dev nD → PrngReg)

/-- The result array on core `c`: the layer's result function of the arguments there. -/
abbrev out (c : Dev nD) : S1000000x3.Idx → EReal :=
  result (m ((c.tc : Thread nD τ).loc main_arg0)) (Cert.ReferenceIdeal.Read.val_main_v13 (F := Ideal) (m ((c.tc : Thread nD τ).loc main_arg0)) (m ((c.tc : Thread nD τ).loc main_arg1)))
    (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))

/-- The whole-array function at row `j`, column `n`. -/
theorem wholeOut_apply (XT AT : S3x1015808.Idx → EReal) (A B : S16x3.Idx → EReal) (c1 : S16x1.Idx → EReal)
    (C : S16x16.Idx → EReal) (c2 : S16x1.Idx → EReal) (D : S3x16.Idx → EReal) (c3 : S3x1.Idx → EReal)
    (j : Fin 3) (n : Fin 1015808) :
    Cert.KernelIdeal.Blocks.wholeOut XT AT A B c1 C c2 D c3 (ix2 j n)
      = mlp (fun l a => A (ix2 l a)) (fun l a => B (ix2 l a)) (fun l => c1 (ix2 l (0 : Fin 1)))
          (fun k l => C (ix2 k l)) (fun k => c2 (ix2 k (0 : Fin 1))) (fun j k => D (ix2 j k))
          (fun j => c3 (ix2 j (0 : Fin 1))) (fun a => XT (ix2 a n)) (fun a => AT (ix2 a n)) j := rfl

/-- The result function at node `n`, feature `j`. -/
theorem result_apply (x agg : S1000000x3.Idx → EReal) (W1 : S6x16.Idx → EReal) (b1 : S16.Idx → EReal)
    (W2 : S16x16.Idx → EReal) (b2 : S16.Idx → EReal) (W3 : S16x3.Idx → EReal) (b3 : S3.Idx → EReal)
    (n : Fin 1000000) (j : Fin 3) :
    result x agg W1 b1 W2 b2 W3 b3 (ix2 n j)
      = mlp (fun l a => W1 (ix2 (Fin.castAdd 3 a : Fin 6) l)) (fun l a => W1 (ix2 (Fin.natAdd 3 a : Fin 6) l))
          (fun l => b1 (ix1 l)) (fun k l => W2 (ix2 l k)) (fun k => b2 (ix1 k)) (fun j k => W3 (ix2 k j))
          (fun j => b3 (ix1 j)) (fun a => x (ix2 n a)) (fun a => agg (ix2 n a)) j := rfl

/-- What the host operations after the region leave in the result buffer. -/
theorem tail_value (c : Dev nD) :
    (Pipeline.afterTail₀ cfgs (dats m) 0 (V0 m) [hostOps1] c main_v28 : S1000000x3.Idx → EReal) = out m c := by
  unfold Pipeline.afterTail₀
  show StableHlo.after hostOps1 _ (Proc.devRef .tc main_v28) = _
  after_results
  funext i
  obtain ⟨n, j, rfl⟩ : ∃ (n : Fin 1000000) (j : Fin 3), i = ix2 n j := ⟨i 0, i 1, eq_ix2 i⟩
  have hn : n.val < 1015808 := by have := n.isLt; omega
  rw [transpose_ix2_apply _ transposes_S3x1000000_S1000000x3_1_0 n j,
    extractStridedSlice_apply ![0, 0] _ slices_S3x1015808_S3x1000000_0_0 (ix2 j n) (ix2 j ⟨n.val, hn⟩)
      (fun d => match d with
        | ⟨0, _⟩ => by show j.val = 0 + j.val; omega
        | ⟨1, _⟩ => by show n.val = 0 + n.val; omega)]
  have hA : Pipeline.withArrays (cfgs 0).spec c (V0 m c) (fun w => (dats m 0 c).arrAt w (cfgs 0).N) (Proc.devRef .tc main_v26)
      = (dats m 0 c).arrAt 9 cfg0.N := Pipeline.withArrays_arr spec0 launch0.win.arr_inj c _ _ 9
  rw [hA, Cert.KernelIdeal.Blocks.final, wholeOut_apply]
  unfold out
  rw [result_apply]
  simp only [Cert.KernelIdeal.Entry.feat_x m c _ ⟨n.val, hn⟩ n rfl, Cert.KernelIdeal.Entry.feat_agg m c _ ⟨n.val, hn⟩ n rfl,
    Cert.KernelIdeal.Weights.w1_left m c, Cert.KernelIdeal.Weights.w1_right m c, Cert.KernelIdeal.Weights.w2_t m c,
    Cert.KernelIdeal.Weights.w3_t m c, Cert.KernelIdeal.Weights.b1_col m c, Cert.KernelIdeal.Weights.b2_col m c,
    Cert.KernelIdeal.Weights.b3_col m c]

/-- Every weakly fair execution of the kernel program terminates with the result array at the layer's result
    function of the arguments, and the arguments unchanged. -/
theorem run : θ_run defs (onTc (τ := τ) (main (F := Ideal))) ⟨m, fun _ => 0, ρ⟩ fun r => ∀ c : Dev nD,
      r.2.mem ((c.tc : Thread nD τ).loc main_v28) = out m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono (fun r h c => ⟨
      ((h c).2 main_v28 (Pipeline.mem_restRefs_of main_v28 (by decide) (by decide))).trans (tail_value m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c),
      ((h c).2 main_arg8 (Pipeline.mem_restRefs_of main_arg8 (by decide) (by decide))).trans (W_main_arg8 m (dats m) c),
      ((h c).2 main_arg9 (Pipeline.mem_restRefs_of main_arg9 (by decide) (by decide))).trans (W_main_arg9 m (dats m) c),
      ((h c).2 main_arg10 (Pipeline.mem_restRefs_of main_arg10 (by decide) (by decide))).trans (W_main_arg10 m (dats m) c)⟩)
    (run_main m ρ)

end Cert.KernelIdeal.KernelValue

end
-- ==== Proof.RefValue.lean ====
/-
  The reference, one entry at a time.

  The reference concatenates a node's three features with its three aggregated features into a row of six, multiplies
  by the 6×16 weight matrix, adds the bias and rectifies; multiplies the row of sixteen by the 16×16 matrix, adds the
  bias and rectifies; multiplies by the 16×3 matrix and adds the bias. Entry `(n, j)` of its result is therefore the
  perceptron of node `n` at output feature `j`, with every weight matrix read transposed and the first one cut at row
  three: columns `0, 1, 2` of the concatenated row are the node's own features, columns `3, 4, 5` its aggregated ones.
-/
import proofs.«118746_j21552145891503_2_alg».proof.Proof.Gen.ReferenceIdeal.Read
import proofs.«118746_j21552145891503_2_alg».proof.Proof.Spec
import proofs.«118746_j21552145891503_2_alg».proof.Proof.Result
import Idealize.ShloMosaic.Lib.Pipeline.Value
import Idealize.ShloMosaic.Lib.ValueIdx
import Idealize.ShloMosaic.PureOps.Ideal.Laws

noncomputable section

namespace Cert.ReferenceIdeal.RefValue

open Cert.ReferenceIdeal Cert.ReferenceIdeal.Gen Cert.ReferenceIdeal.Read Idealize.ShloMosaic Idealize.ShloMosaic.ValueIdx
open Cert.NodeMlp

variable (x0 : (⟨S1000000x3, .f32⟩ : BufTy).Contents (Elt Ideal)) (x1 : (⟨S2x26000000, .i32⟩ : BufTy).Contents (Elt Ideal))
  (x5 : (⟨S6x16, .f32⟩ : BufTy).Contents (Elt Ideal)) (x6 : (⟨S16, .f32⟩ : BufTy).Contents (Elt Ideal))
  (x7 : (⟨S16x16, .f32⟩ : BufTy).Contents (Elt Ideal)) (x8 : (⟨S16, .f32⟩ : BufTy).Contents (Elt Ideal))
  (x9 : (⟨S16x3, .f32⟩ : BufTy).Contents (Elt Ideal)) (x10 : (⟨S3, .f32⟩ : BufTy).Contents (Elt Ideal))

/-- Columns 0–2 of the concatenated row are the node's own features. -/
theorem cat_left (n : Fin 1000000) (a : Fin 3) :
    val_main_v14 (F := Ideal) x0 x1 (ix2 n (Fin.castAdd 3 a : Fin 6)) = x0 (ix2 n a) := by
  unfold val_main_v14
  exact concatenate_pair_apply_left (1 : Fin S1000000x6.rank) x0 _ concatenates_S1000000x3_S1000000x3_S1000000x6_d1
    (ix2 n (Fin.castAdd 3 a : Fin 6)) rfl (ix2 n a) (fun b => match b with | ⟨0, _⟩ => rfl | ⟨1, _⟩ => rfl)

/-- Columns 3–5 are its aggregated features. -/
theorem cat_right (n : Fin 1000000) (a : Fin 3) :
    val_main_v14 (F := Ideal) x0 x1 (ix2 n (Fin.natAdd 3 a : Fin 6)) = val_main_v13 (F := Ideal) x0 x1 (ix2 n a) := by
  unfold val_main_v14
  exact concatenate_pair_apply_right (1 : Fin S1000000x6.rank) x0 _ concatenates_S1000000x3_S1000000x3_S1000000x6_d1
    (ix2 n (Fin.natAdd 3 a : Fin 6)) rfl rfl (ix2 n a)
    (fun b => match b with | ⟨0, _⟩ => fun _ => rfl | ⟨1, _⟩ => fun h => absurd rfl h)
    (by show a.val + 3 = 3 + a.val; omega)

/-! ## The printed index maps, by coordinates -/

theorem lhs15 (n : Fin 1000000) (l : Fin 16) (k : Fin 6) : lidx_main_v15 (ix2 n l) k = ix2 n k := funext fun a => Fin.ext (by match a with | ⟨0, _⟩ => rfl | ⟨1, _⟩ => rfl)
theorem rhs15 (n : Fin 1000000) (l : Fin 16) (k : Fin 6) : ridx_main_v15 (ix2 n l) k = ix2 k l := funext fun a => Fin.ext (by match a with | ⟨0, _⟩ => rfl | ⟨1, _⟩ => rfl)
theorem bias1 (n : Fin 1000000) (l : Fin 16) : idx_main_v16 (idx_main_v17 (ix2 n l)) = ix1 l := funext fun a => Fin.ext (by match a with | ⟨0, _⟩ => rfl)
theorem lhs20 (n : Fin 1000000) (k : Fin 16) (l : Fin 16) : lidx_main_v20 (ix2 n k) l = ix2 n l := funext fun a => Fin.ext (by match a with | ⟨0, _⟩ => rfl | ⟨1, _⟩ => rfl)
theorem rhs20 (n : Fin 1000000) (k : Fin 16) (l : Fin 16) : ridx_main_v20 (ix2 n k) l = ix2 l k := funext fun a => Fin.ext (by match a with | ⟨0, _⟩ => rfl | ⟨1, _⟩ => rfl)
theorem bias2 (n : Fin 1000000) (k : Fin 16) : idx_main_v21 (idx_main_v22 (ix2 n k)) = ix1 k := funext fun a => Fin.ext (by match a with | ⟨0, _⟩ => rfl)
theorem lhs25 (n : Fin 1000000) (j : Fin 3) (k : Fin 16) : lidx_main_v25 (ix2 n j) k = ix2 n k := funext fun a => Fin.ext (by match a with | ⟨0, _⟩ => rfl | ⟨1, _⟩ => rfl)
theorem rhs25 (n : Fin 1000000) (j : Fin 3) (k : Fin 16) : ridx_main_v25 (ix2 n j) k = ix2 k j := funext fun a => Fin.ext (by match a with | ⟨0, _⟩ => rfl | ⟨1, _⟩ => rfl)
theorem bias3 (n : Fin 1000000) (j : Fin 3) : idx_main_v26 (idx_main_v27 (ix2 n j)) = ix1 j := funext fun a => Fin.ext (by match a with | ⟨0, _⟩ => rfl)

/-- The first hidden layer of node `n` at unit `l`. -/
theorem hidden1 (n : Fin 1000000) (l : Fin 16) :
    val_main_v19 (F := Ideal) x0 x1 x5 x6 (ix2 n l)
      = layer1 (fun l a => x5 (ix2 (Fin.castAdd 3 a : Fin 6) l)) (fun l a => x5 (ix2 (Fin.natAdd 3 a : Fin 6) l))
          (fun l => x6 (ix1 l)) (fun a => x0 (ix2 n a)) (fun a => val_main_v13 (F := Ideal) x0 x1 (ix2 n a)) l := by
  rw [val_main_v19_apply, val_main_v18_apply, val_main_v15_apply, val_main_v17_apply, val_main_v16_apply,
    val_main_call0_v0_apply, val_main_call0_cst_apply]
  have e := layer1_of_row (fun k l => x5 (ix2 k l)) (fun l => x6 (ix1 l))
    (fun k => val_main_v14 (F := Ideal) x0 x1 (ix2 n k)) l
  simp only [cat_left, cat_right] at e
  rw [← e, Ideal.maximumf_def, Ideal.addf_def, Ideal.ofBits_def, Ideal.ofBits_zero_f32]
  simp only [lhs15, rhs15, bias1]

/-- The second hidden layer of node `n` at unit `k`. -/
theorem hidden2 (n : Fin 1000000) (k : Fin 16) :
    val_main_v24 (F := Ideal) x0 x1 x5 x6 x7 x8 (ix2 n k)
      = layer2 (fun k l => x7 (ix2 l k)) (fun k => x8 (ix1 k))
          (fun l => val_main_v19 (F := Ideal) x0 x1 x5 x6 (ix2 n l)) k := by
  rw [val_main_v24_apply, val_main_v23_apply, val_main_v20_apply, val_main_v22_apply, val_main_v21_apply,
    val_main_call1_v0_apply, val_main_call1_cst_apply]
  have e := layer2_of_row (fun l k => x7 (ix2 l k)) (fun k => x8 (ix1 k))
    (fun l => val_main_v19 (F := Ideal) x0 x1 x5 x6 (ix2 n l)) k
  beta_reduce at e
  rw [← e, Ideal.maximumf_def, Ideal.addf_def, Ideal.ofBits_def, Ideal.ofBits_zero_f32]
  simp only [lhs20, rhs20, bias2]

/-- Entry `(n, j)` of the reference's result. -/
theorem result_entry (n : Fin 1000000) (j : Fin 3) :
    val_main_v28 (F := Ideal) x0 x1 x5 x6 x7 x8 x9 x10 (ix2 n j)
      = mlp (fun l a => x5 (ix2 (Fin.castAdd 3 a : Fin 6) l)) (fun l a => x5 (ix2 (Fin.natAdd 3 a : Fin 6) l))
          (fun l => x6 (ix1 l)) (fun k l => x7 (ix2 l k)) (fun k => x8 (ix1 k)) (fun j k => x9 (ix2 k j))
          (fun j => x10 (ix1 j)) (fun a => x0 (ix2 n a)) (fun a => val_main_v13 (F := Ideal) x0 x1 (ix2 n a)) j := by
  rw [val_main_v28_apply, val_main_v25_apply, val_main_v27_apply, val_main_v26_apply]
  have e := layer3_of_row (fun k j => x9 (ix2 k j)) (fun j => x10 (ix1 j))
    (fun k => val_main_v24 (F := Ideal) x0 x1 x5 x6 x7 x8 (ix2 n k)) j
  beta_reduce at e
  have h2 : (fun k => val_main_v24 (F := Ideal) x0 x1 x5 x6 x7 x8 (ix2 n k))
      = layer2 (fun k l => x7 (ix2 l k)) (fun k => x8 (ix1 k)) (fun l => val_main_v19 (F := Ideal) x0 x1 x5 x6 (ix2 n l)) :=
    funext (hidden2 x0 x1 x5 x6 x7 x8 n)
  have h1 : (fun l => val_main_v19 (F := Ideal) x0 x1 x5 x6 (ix2 n l))
      = layer1 (fun l a => x5 (ix2 (Fin.castAdd 3 a : Fin 6) l)) (fun l a => x5 (ix2 (Fin.natAdd 3 a : Fin 6) l))
          (fun l => x6 (ix1 l)) (fun a => x0 (ix2 n a)) (fun a => val_main_v13 (F := Ideal) x0 x1 (ix2 n a)) :=
    funext (hidden1 x0 x1 x5 x6 n)
  unfold mlp
  rw [← h1, ← h2, ← e, Ideal.addf_def]
  simp only [lhs25, rhs25, bias3]

/-- The reference's result array is the layer's result function of its arguments. -/
theorem result_eq :
    val_main_v28 (F := Ideal) x0 x1 x5 x6 x7 x8 x9 x10
      = result x0 (val_main_v13 (F := Ideal) x0 x1) x5 x6 x7 x8 x9 x10 := by
  funext i
  obtain ⟨n, j, rfl⟩ : ∃ (n : Fin 1000000) (j : Fin 3), i = ix2 n j := ⟨i 0, i 1, eq_ix2 i⟩
  exact result_entry x0 x1 x5 x6 x7 x8 x9 x10 n j

end Cert.ReferenceIdeal.RefValue

end
-- ==== Proof.lean ====
/-
  The node model of a message-passing layer: a kernel against its plain reference, at exact arithmetic.

  Both programs first gather each edge's source-node features and sum them into the edge's target node, with the same
  host operations, so the aggregated features are one shared term. The reference then concatenates features and
  aggregated features into rows of six and applies a three-layer perceptron row by row. The kernel keeps the nodes on
  the last axis instead: it transposes both feature arrays to three rows, pads them with zero columns to 31 blocks of
  32768 columns, multiplies by the transposed weights from the left — the first weight matrix cut into the halves that
  meet the node's own and its aggregated features — and finally drops the padding and transposes back.
  On the extended reals the changes of float format are the identity, every matrix product is a plain finite sum, and
  the two arrangements differ only by the order of the factors in each product, the grouping of the first layer's six
  terms as three plus three, and where in memory a node's column lives; none of this needs the inputs to be finite.
  The frames are the generated ones; nothing was rewritten by the ideal pass, so the idealization claim is trivial.
-/
import proofs.«118746_j21552145891503_2_alg».proof.Defs
import proofs.«118746_j21552145891503_2_alg».proof.Proof.Gen.Kernel
import proofs.«118746_j21552145891503_2_alg».proof.Proof.Gen.Kernel.Skeleton
import proofs.«118746_j21552145891503_2_alg».proof.Proof.Gen.Kernel.Launch
import proofs.«118746_j21552145891503_2_alg».proof.Proof.Gen.Kernel.Points
import proofs.«118746_j21552145891503_2_alg».proof.Proof.Gen.Kernel.Frame
import proofs.«118746_j21552145891503_2_alg».proof.Proof.Gen.KernelIdeal
import proofs.«118746_j21552145891503_2_alg».proof.Proof.Gen.KernelIdeal.Skeleton
import proofs.«118746_j21552145891503_2_alg».proof.Proof.Gen.KernelIdeal.Launch
import proofs.«118746_j21552145891503_2_alg».proof.Proof.Gen.KernelIdeal.Points
import proofs.«118746_j21552145891503_2_alg».proof.Proof.Gen.KernelIdeal.Frame
import proofs.«118746_j21552145891503_2_alg».proof.Proof.Gen.ReferenceIdeal
import proofs.«118746_j21552145891503_2_alg».proof.Proof.Gen.ReferenceIdeal.Run
import proofs.«118746_j21552145891503_2_alg».proof.Proof.Gen.ReferenceIdeal.Read
import proofs.«118746_j21552145891503_2_alg».proof.Proof.Gen.Pre_finite_inputs
import proofs.«118746_j21552145891503_2_alg».proof.Proof.KernelValue
import proofs.«118746_j21552145891503_2_alg».proof.Proof.RefValue
import Idealize.ShloMosaic.Adequacy
import Idealize.ShloMosaic.Init

noncomputable section

namespace Cert.Proof

open Idealize.ShloMosaic Idealize.SL.Sem

/-- The kernel program as printed runs and leaves its arguments unchanged. -/
theorem frame_kernel : Cert.frame_Kernel := fun m ρ _ => Cert.Kernel.Gen.frame m ρ

/-- So does the kernel program read at exact arithmetic. -/
theorem frame_kernel_ideal : Cert.frame_KernelIdeal := fun m ρ _ => Cert.KernelIdeal.Gen.frame m ρ

/-- The reference has no kernel: its frame is its run with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- From memories that agree on the arguments both programs end with the result array at the layer's result function
    of those arguments. -/
theorem algebraic : Cert.algebraic_KernelIdeal_ReferenceIdeal := by
  intro m ρ m' ρ' _ hagree
  refine ⟨fun c => Cert.KernelIdeal.KernelValue.out m c, Cert.KernelIdeal.KernelValue.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, -, -, -, a5, a6, a7, a8, a9, a10⟩ := hagree c
  rw [Cert.ReferenceIdeal.Read.val_main_v28_eq, Cert.ReferenceIdeal.RefValue.result_eq, a0, a1, a5, a6, a7, a8, a9, a10]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
